-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S4096 : Shape := ⟨1, ![4096]⟩
abbrev S468000 : Shape := ⟨1, ![468000]⟩
abbrev S117000x300 : Shape := ⟨2, ![117000, 300]⟩
abbrev S300x300 : Shape := ⟨2, ![300, 300]⟩
abbrev S1068x500 : Shape := ⟨2, ![1068, 500]⟩
abbrev S500 : Shape := ⟨1, ![500]⟩
abbrev S500x500 : Shape := ⟨2, ![500, 500]⟩
abbrev S500x2 : Shape := ⟨2, ![500, 2]⟩
abbrev S2 : Shape := ⟨1, ![2]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S117000x300 : S_.BroadcastsInDim S117000x300 (![] : Fin 0 → Fin S117000x300.rank)
  reducesTo_S117000x300_S_d0_1 : S117000x300.ReducesTo [0, 1] S_
  bcast_S_S300x300 : S_.BroadcastsInDim S300x300 (![] : Fin 0 → Fin S300x300.rank)
  reducesTo_S300x300_S_d0_1 : S300x300.ReducesTo [0, 1] S_
  bcast_S_S1068x500 : S_.BroadcastsInDim S1068x500 (![] : Fin 0 → Fin S1068x500.rank)
  reducesTo_S1068x500_S_d0_1 : S1068x500.ReducesTo [0, 1] S_
  bcast_S_S500 : S_.BroadcastsInDim S500 (![] : Fin 0 → Fin S500.rank)
  reducesTo_S500_S_d0 : S500.ReducesTo [0] S_
  bcast_S_S500x500 : S_.BroadcastsInDim S500x500 (![] : Fin 0 → Fin S500x500.rank)
  reducesTo_S500x500_S_d0_1 : S500x500.ReducesTo [0, 1] S_
  bcast_S_S500x2 : S_.BroadcastsInDim S500x2 (![] : Fin 0 → Fin S500x2.rank)
  reducesTo_S500x2_S_d0_1 : S500x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg10 : FVec F S500 .f32) (main_arg11 : FVec F S500x2 .f32) (main_arg12 : FVec F S2 .f32) (main_v33 : IVec S_ 1) : IVec S_ 1 :=
  let main_v34 : FVec F S500 .f32 := Host.absf main_arg10
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  let main_v39 : FVec F S500x2 .f32 := Host.absf main_arg11
  let main_cst_14 : FVec F S_ .f32 := constant S_ .f32 0x7F800000#32
  let main_v40 : FVec F S500x2 .f32 := broadcastInDim S500x2 ![] bcast_S_S500x2 main_cst_14
  let main_v41 : IVec S500x2 1 := cmpf .olt main_v39 main_v40
  let main_c_15 : IVec S_ 1 := constantI S_ 1 1#1
  let main_v42 : IVec S_ 1 := (fun x v => Host.reduce IntOp.andi x v reducesTo_S500x2_S_d0_1 h_S_) main_v41 main_c_15
  let main_v43 : IVec S_ 1 := andi main_v38 main_v42
  let main_v44 : FVec F S2 .f32 := Host.absf main_arg12
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg7 : FVec F S1068x500 .f32) (main_arg8 : FVec F S500 .f32) (main_arg9 : FVec F S500x500 .f32) (main_arg10 : FVec F S500 .f32) (main_arg11 : FVec F S500x2 .f32) (main_arg12 : FVec F S2 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S1068x500 .f32 := Host.absf main_arg7
  let main_cst_6 : FVec F S_ .f32 := constant S_ .f32 0x7F800000#32
  let main_v20 : FVec F S1068x500 .f32 := broadcastInDim S1068x500 ![] bcast_S_S1068x500 main_cst_6
  let main_v21 : IVec S1068x500 1 := cmpf .olt main_v19 main_v20
  let main_c_7 : IVec S_ 1 := constantI S_ 1 1#1
  let main_v22 : IVec S_ 1 := (fun x v => Host.reduce IntOp.andi x v reducesTo_S1068x500_S_d0_1 h_S_) main_v21 main_c_7
  let main_v23 : IVec S_ 1 := andi main_v18 main_v22
  let main_v24 : FVec F S500 .f32 := Host.absf main_arg8
  let main_cst_8 : FVec F S_ .f32 := constant S_ .f32 0x7F800000#32
  let main_v25 : FVec F S500 .f32 := broadcastInDim S500 ![] bcast_S_S500 main_cst_8
  let main_v26 : IVec S500 1 := cmpf .olt main_v24 main_v25
  let main_c_9 : IVec S_ 1 := constantI S_ 1 1#1
  let main_v27 : IVec S_ 1 := (fun x v => Host.reduce IntOp.andi x v reducesTo_S500_S_d0 h_S_) main_v26 main_c_9
  let main_v28 : IVec S_ 1 := andi main_v23 main_v27
  let main_v29 : FVec F S500x500 .f32 := Host.absf main_arg9
  let main_cst_10 : FVec F S_ .f32 := constant S_ .f32 0x7F800000#32
  let main_v30 : FVec F S500x500 .f32 := broadcastInDim S500x500 ![] bcast_S_S500x500 main_cst_10
  let main_v31 : IVec S500x500 1 := cmpf .olt main_v29 main_v30
  let main_c_11 : IVec S_ 1 := constantI S_ 1 1#1
  let main_v32 : IVec S_ 1 := (fun x v => Host.reduce IntOp.andi x v reducesTo_S500x500_S_d0_1 h_S_) main_v31 main_c_11
  let main_v33 : IVec S_ 1 := andi main_v28 main_v32
  fn_part2 (F := F) main_arg10 main_arg11 main_arg12 main_v33

def fn {F : FTy → Type} [FloatOps F] (main_arg0 : FVec F S4096x768 .f32) (main_arg1 : IVec S4096 32) (main_arg2 : IVec S468000 32) (main_arg3 : IVec S468000 32) (main_arg4 : FVec F S117000x300 .f32) (main_arg5 : FVec F S300x300 .f32) (main_arg6 : FVec F S300x300 .f32) (main_arg7 : FVec F S1068x500 .f32) (main_arg8 : FVec F S500 .f32) (main_arg9 : FVec F S500x500 .f32) (main_arg10 : FVec F S500 .f32) (main_arg11 : FVec F S500x2 .f32) (main_arg12 : FVec F S2 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S117000x300 .f32 := Host.absf main_arg4
  let main_cst_0 : FVec F S_ .f32 := constant S_ .f32 0x7F800000#32
  let main_v5 : FVec F S117000x300 .f32 := broadcastInDim S117000x300 ![] bcast_S_S117000x300 main_cst_0
  let main_v6 : IVec S117000x300 1 := cmpf .olt main_v4 main_v5
  let main_c_1 : IVec S_ 1 := constantI S_ 1 1#1
  let main_v7 : IVec S_ 1 := (fun x v => Host.reduce IntOp.andi x v reducesTo_S117000x300_S_d0_1 h_S_) main_v6 main_c_1
  let main_v8 : IVec S_ 1 := andi main_v3 main_v7
  let main_v9 : FVec F S300x300 .f32 := Host.absf main_arg5
  let main_cst_2 : FVec F S_ .f32 := constant S_ .f32 0x7F800000#32
  let main_v10 : FVec F S300x300 .f32 := broadcastInDim S300x300 ![] bcast_S_S300x300 main_cst_2
  let main_v11 : IVec S300x300 1 := cmpf .olt main_v9 main_v10
  let main_c_3 : IVec S_ 1 := constantI S_ 1 1#1
  let main_v12 : IVec S_ 1 := (fun x v => Host.reduce IntOp.andi x v reducesTo_S300x300_S_d0_1 h_S_) main_v11 main_c_3
  let main_v13 : IVec S_ 1 := andi main_v8 main_v12
  let main_v14 : FVec F S300x300 .f32 := Host.absf main_arg6
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg7 main_arg8 main_arg9 main_arg10 main_arg11 main_arg12 main_v13 main_v16
-- ==== Kernel.lean ====
abbrev S4096x768 : Shape := ⟨2, ![4096, 768]⟩
abbrev S4096 : Shape := ⟨1, ![4096]⟩
abbrev S468000 : Shape := ⟨1, ![468000]⟩
abbrev S117000x300 : Shape := ⟨2, ![117000, 300]⟩
abbrev S300x300 : Shape := ⟨2, ![300, 300]⟩
abbrev S1068x500 : Shape := ⟨2, ![1068, 500]⟩
abbrev S500 : Shape := ⟨1, ![500]⟩
abbrev S500x500 : Shape := ⟨2, ![500, 500]⟩
abbrev S500x2 : Shape := ⟨2, ![500, 2]⟩
abbrev S2 : Shape := ⟨1, ![2]⟩
abbrev S_ : Shape := ⟨0, ![]⟩
abbrev S117000 : Shape := ⟨1, ![117000]⟩
abbrev S468000x1 : Shape := ⟨2, ![468000, 1]⟩
abbrev S3000x300 : Shape := ⟨2, ![3000, 300]⟩
abbrev S468000x300 : Shape := ⟨2, ![468000, 300]⟩
abbrev S4096x1 : Shape := ⟨2, ![4096, 1]⟩
abbrev S4096x300 : Shape := ⟨2, ![4096, 300]⟩
abbrev S300x500 : Shape := ⟨2, ![300, 500]⟩
abbrev S768x500 : Shape := ⟨2, ![768, 500]⟩
abbrev S1x500 : Shape := ⟨2, ![1, 500]⟩
abbrev S1x2 : Shape := ⟨2, ![1, 2]⟩
abbrev S4096x2 : Shape := ⟨2, ![4096, 2]⟩
abbrev S1024x300 : Shape := ⟨2, ![1024, 300]⟩
abbrev S1024x768 : Shape := ⟨2, ![1024, 768]⟩
abbrev S1024x2 : Shape := ⟨2, ![1024, 2]⟩
abbrev S1024x500 : Shape := ⟨2, ![1024, 500]⟩

abbrev nBuf : Space → Nat
  | .hbm => 98
  | .vmem => 27
  | .smem => 0
  | _ => 0

abbrev bufTy : (tb : Table) → Fin (tcTables nBuf tb) → BufTy
  | .hbm, ⟨0, _⟩ => ⟨S4096x768, .f32⟩
  | .hbm, ⟨1, _⟩ => ⟨S4096, .i32⟩
  | .hbm, ⟨2, _⟩ => ⟨S468000, .i32⟩
  | .hbm, ⟨3, _⟩ => ⟨S468000, .i32⟩
  | .hbm, ⟨4, _⟩ => ⟨S117000x300, .f32⟩
  | .hbm, ⟨5, _⟩ => ⟨S300x300, .f32⟩
  | .hbm, ⟨6, _⟩ => ⟨S300x300, .f32⟩
  | .hbm, ⟨7, _⟩ => ⟨S1068x500, .f32⟩
  | .hbm, ⟨8, _⟩ => ⟨S500, .f32⟩
  | .hbm, ⟨9, _⟩ => ⟨S500x500, .f32⟩
  | .hbm, ⟨10, _⟩ => ⟨S500, .f32⟩
  | .hbm, ⟨11, _⟩ => ⟨S500x2, .f32⟩
  | .hbm, ⟨12, _⟩ => ⟨S2, .f32⟩
  | .hbm, ⟨13, _⟩ => ⟨S_, .f32⟩
  | .hbm, ⟨14, _⟩ => ⟨S468000, .f32⟩
  | .hbm, ⟨15, _⟩ => ⟨S_, .f32⟩
  | .hbm, ⟨16, _⟩ => ⟨S117000, .f32⟩
  | .hbm, ⟨17, _⟩ => ⟨S468000x1, .i32⟩
  | .hbm, ⟨18, _⟩ => ⟨S117000, .f32⟩
  | .hbm, ⟨19, _⟩ => ⟨S_, .f32⟩
  | .hbm, ⟨20, _⟩ => ⟨S117000, .f32⟩
  | .hbm, ⟨21, _⟩ => ⟨S117000, .i1⟩
  | .hbm, ⟨22, _⟩ => ⟨S_, .f32⟩
  | .hbm, ⟨23, _⟩ => ⟨S117000, .f32⟩
  | .hbm, ⟨24, _⟩ => ⟨S117000, .f32⟩
  | .hbm, ⟨25, _⟩ => ⟨S_, .f32⟩
  | .hbm, ⟨26, _⟩ => ⟨S_, .f32⟩
  | .hbm, ⟨27, _⟩ => ⟨S117000, .f32⟩
  | .hbm, ⟨28, _⟩ => ⟨S117000, .f32⟩
  | .hbm, ⟨29, _⟩ => ⟨S_, .i32⟩
  | .hbm, ⟨30, _⟩ => ⟨S468000, .i32⟩
  | .hbm, ⟨31, _⟩ => ⟨S468000, .i1⟩
  | .hbm, ⟨32, _⟩ => ⟨S_, .i32⟩
  | .hbm, ⟨33, _⟩ => ⟨S468000, .i32⟩
  | .hbm, ⟨34, _⟩ => ⟨S468000, .i32⟩
  | .hbm, ⟨35, _⟩ => ⟨S468000, .i32⟩
  | .hbm, ⟨36, _⟩ => ⟨S468000x1, .i32⟩
  | .hbm, ⟨37, _⟩ => ⟨S468000, .f32⟩
  | .hbm, ⟨38, _⟩ => ⟨S_, .i32⟩
  | .hbm, ⟨39, _⟩ => ⟨S468000, .i32⟩
  | .hbm, ⟨40, _⟩ => ⟨S468000, .i1⟩
  | .hbm, ⟨41, _⟩ => ⟨S_, .i32⟩
  | .hbm, ⟨42, _⟩ => ⟨S468000, .i32⟩
  | .hbm, ⟨43, _⟩ => ⟨S468000, .i32⟩
  | .hbm, ⟨44, _⟩ => ⟨S468000, .i32⟩
  | .hbm, ⟨45, _⟩ => ⟨S468000x1, .i32⟩
  | .hbm, ⟨46, _⟩ => ⟨S468000, .f32⟩
  | .hbm, ⟨47, _⟩ => ⟨S468000, .f32⟩
  | .hbm, ⟨48, _⟩ => ⟨S117000x300, .f32⟩
  | .hbm, ⟨49, _⟩ => ⟨S_, .i32⟩
  | .hbm, ⟨50, _⟩ => ⟨S468000, .i32⟩
  | .hbm, ⟨51, _⟩ => ⟨S468000, .i1⟩
  | .hbm, ⟨52, _⟩ => ⟨S_, .i32⟩
  | .hbm, ⟨53, _⟩ => ⟨S468000, .i32⟩
  | .hbm, ⟨54, _⟩ => ⟨S468000, .i32⟩
  | .hbm, ⟨55, _⟩ => ⟨S468000, .i32⟩
  | .hbm, ⟨56, _⟩ => ⟨S468000x1, .i32⟩
  | .hbm, ⟨57, _⟩ => ⟨S468000x300, .f32⟩
  | .hbm, ⟨58, _⟩ => ⟨S468000x1, .f32⟩
  | .hbm, ⟨59, _⟩ => ⟨S468000x300, .f32⟩
  | .hbm, ⟨60, _⟩ => ⟨S468000x300, .f32⟩
  | .hbm, ⟨61, _⟩ => ⟨S_, .f32⟩
  | .hbm, ⟨62, _⟩ => ⟨S117000x300, .f32⟩
  | .hbm, ⟨63, _⟩ => ⟨S468000x1, .i32⟩
  | .hbm, ⟨64, _⟩ => ⟨S117000x300, .f32⟩
  | .hbm, ⟨65, _⟩ => ⟨S117000x300, .f32⟩
  | .hbm, ⟨66, _⟩ => ⟨S_, .i32⟩
  | .hbm, ⟨67, _⟩ => ⟨S468000, .i32⟩
  | .hbm, ⟨68, _⟩ => ⟨S468000, .i1⟩
  | .hbm, ⟨69, _⟩ => ⟨S_, .i32⟩
  | .hbm, ⟨70, _⟩ => ⟨S468000, .i32⟩
  | .hbm, ⟨71, _⟩ => ⟨S468000, .i32⟩
  | .hbm, ⟨72, _⟩ => ⟨S468000, .i32⟩
  | .hbm, ⟨73, _⟩ => ⟨S468000x1, .i32⟩
  | .hbm, ⟨74, _⟩ => ⟨S468000x300, .f32⟩
  | .hbm, ⟨75, _⟩ => ⟨S468000x1, .f32⟩
  | .hbm, ⟨76, _⟩ => ⟨S468000x300, .f32⟩
  | .hbm, ⟨77, _⟩ => ⟨S468000x300, .f32⟩
  | .hbm, ⟨78, _⟩ => ⟨S_, .f32⟩
  | .hbm, ⟨79, _⟩ => ⟨S117000x300, .f32⟩
  | .hbm, ⟨80, _⟩ => ⟨S468000x1, .i32⟩
  | .hbm, ⟨81, _⟩ => ⟨S117000x300, .f32⟩
  | .hbm, ⟨82, _⟩ => ⟨S117000x300, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x300, .f32⟩
  | .hbm, ⟨92, _⟩ => ⟨S300x500, .f32⟩
  | .hbm, ⟨93, _⟩ => ⟨S768x500, .f32⟩
  | .hbm, ⟨94, _⟩ => ⟨S1x500, .f32⟩
  | .hbm, ⟨95, _⟩ => ⟨S1x500, .f32⟩
  | .hbm, ⟨96, _⟩ => ⟨S1x2, .f32⟩
  | .hbm, ⟨97, _⟩ => ⟨S4096x2, .f32⟩
  | .local _ .vmem, ⟨0, _⟩ => ⟨S3000x300, .f32⟩
  | .local _ .vmem, ⟨1, _⟩ => ⟨S3000x300, .f32⟩
  | .local _ .vmem, ⟨2, _⟩ => ⟨S300x300, .f32⟩
  | .local _ .vmem, ⟨3, _⟩ => ⟨S3000x300, .f32⟩
  | .local _ .vmem, ⟨4, _⟩ => ⟨S3000x300, .f32⟩
  | .local _ .vmem, ⟨5, _⟩ => ⟨S3000x300, .f32⟩
  | .local _ .vmem, ⟨6, _⟩ => ⟨S3000x300, .f32⟩
  | .local _ .vmem, ⟨7, _⟩ => ⟨S300x300, .f32⟩
  | .local _ .vmem, ⟨8, _⟩ => ⟨S3000x300, .f32⟩
  | .local _ .vmem, ⟨9, _⟩ => ⟨S3000x300, .f32⟩
  | .local _ .vmem, ⟨10, _⟩ => ⟨S3000x300, .f32⟩
  | .local _ .vmem, ⟨11, _⟩ => ⟨S3000x300, .f32⟩
  | .local _ .vmem, ⟨12, _⟩ => ⟨S3000x300, .f32⟩
  | .local _ .vmem, ⟨13, _⟩ => ⟨S3000x300, .f32⟩
  | .local _ .vmem, ⟨14, _⟩ => ⟨S1024x300, .f32⟩
  | .local _ .vmem, ⟨15, _⟩ => ⟨S1024x300, .f32⟩
  | .local _ .vmem, ⟨16, _⟩ => ⟨S1024x768, .f32⟩
  | .local _ .vmem, ⟨17, _⟩ => ⟨S1024x768, .f32⟩
  | .local _ .vmem, ⟨18, _⟩ => ⟨S300x500, .f32⟩
  | .local _ .vmem, ⟨19, _⟩ => ⟨S768x500, .f32⟩
  | .local _ .vmem, ⟨20, _⟩ => ⟨S1x500, .f32⟩
  | .local _ .vmem, ⟨21, _⟩ => ⟨S500x500, .f32⟩
  | .local _ .vmem, ⟨22, _⟩ => ⟨S1x500, .f32⟩
  | .local _ .vmem, ⟨23, _⟩ => ⟨S500x2, .f32⟩
  | .local _ .vmem, ⟨24, _⟩ => ⟨S1x2, .f32⟩
  | .local _ .vmem, ⟨25, _⟩ => ⟨S1024x2, .f32⟩
  | .local _ .vmem, ⟨26, _⟩ => ⟨S1024x2, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_4 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_5 : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_7 : Ref sig .tc := ⟨.hbm, 49, rfl⟩
abbrev main_v25 : Ref sig .tc := ⟨.hbm, 50, rfl⟩
abbrev main_v26 : Ref sig .tc := ⟨.hbm, 51, rfl⟩
abbrev main_c_8 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_10 : Ref sig .tc := ⟨.hbm, 66, rfl⟩
abbrev main_v39 : Ref sig .tc := ⟨.hbm, 67, rfl⟩
abbrev main_v40 : Ref sig .tc := ⟨.hbm, 68, rfl⟩
abbrev main_c_11 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_13 : Ref sig .tc := ⟨.hbm, 83, rfl⟩
abbrev main_v53 : Ref sig .tc := ⟨.hbm, 84, rfl⟩
abbrev main_v54 : Ref sig .tc := ⟨.hbm, 85, rfl⟩
abbrev main_c_14 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg7_0 : Ref sig .tc := ⟨.vmem, 23, rfl⟩
abbrev cc3_stg8_0 : Ref sig .tc := ⟨.vmem, 24, rfl⟩
abbrev cc3_stg9_0 : Ref sig .tc := ⟨.vmem, 25, rfl⟩
abbrev cc3_stg9_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem6_0 : DmaSem sig := 22
abbrev cc3_sem7_0 : DmaSem sig := 23
abbrev cc3_sem8_0 : DmaSem sig := 24
abbrev cc3_sem9_0 : DmaSem sig := 25
abbrev cc3_sem9_1 : DmaSem sig := 26

abbrev nD : Nat := 1
abbrev τ : Topo := Topo.v7x

variable {F : FTy → Type} [FloatOps F]

abbrev grid0 : Pipeline.Grid := ⟨1, ![39], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![39], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3000x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![39], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S300x500 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S768x500 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x500 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S500x500 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x500 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S500x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1024x2 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bcast_S_S468000 : S_.BroadcastsInDim S468000 (![] : Fin 0 → Fin S468000.rank)
  bcast_S_S117000 : S_.BroadcastsInDim S117000 (![] : Fin 0 → Fin S117000.rank)
  bcast_S468000_S468000x1_0 : S468000.BroadcastsInDim S468000x1 (![0] : Fin 1 → Fin S468000x1.rank)
  inb_S3000x300_S3000x300_0_0 : ∀ a, (![0, 0] : Fin 2 → Nat) a + S3000x300.size a ≤ S3000x300.size a
  h_S3000x300 : 0 < S3000x300.numel
  bitsLt_bf16_f32 : FTy.bits .bf16 < FTy.bits .f32
  inb_S300x300_S300x300_0_0 : ∀ a, (![0, 0] : Fin 2 → Nat) a + S300x300.size a ≤ S300x300.size a
  h_S300x300 : 0 < S300x300.numel
  bcast_S468000x1_S468000x300_0_1 : S468000x1.BroadcastsInDim S468000x300 (![0, 1] : Fin 2 → Fin S468000x300.rank)
  bcast_S_S117000x300 : S_.BroadcastsInDim S117000x300 (![] : Fin 0 → Fin S117000x300.rank)
  shapeCasts_S3000x300_S3000x300 : S3000x300.ShapeCasts S3000x300
  bcast_S_S4096 : S_.BroadcastsInDim S4096 (![] : Fin 0 → Fin S4096.rank)
  bcast_S4096_S4096x1_0 : S4096.BroadcastsInDim S4096x1 (![0] : Fin 1 → Fin S4096x1.rank)
  slices_S1068x500_S300x500_0_0 : S1068x500.Slices ![0, 0] S300x500
  slices_S1068x500_S768x500_300_0 : S1068x500.Slices ![300, 0] S768x500
  shapeCasts_S500_S1x500 : S500.ShapeCasts S1x500
  shapeCasts_S2_S1x2 : S2.ShapeCasts S1x2
  inb_S1024x300_S1024x300_0_0 : ∀ a, (![0, 0] : Fin 2 → Nat) a + S1024x300.size a ≤ S1024x300.size a
  h_S1024x300 : 0 < S1024x300.numel
  shapeCasts_S1024x300_S1024x300 : S1024x300.ShapeCasts S1024x300
  inb_S1024x768_S1024x768_0_0 : ∀ a, (![0, 0] : Fin 2 → Nat) a + S1024x768.size a ≤ S1024x768.size a
  h_S1024x768 : 0 < S1024x768.numel
  inb_S300x500_S300x500_0_0 : ∀ a, (![0, 0] : Fin 2 → Nat) a + S300x500.size a ≤ S300x500.size a
  h_S300x500 : 0 < S300x500.numel
  shapeCasts_S300x500_S300x500 : S300x500.ShapeCasts S300x500
  inb_S768x500_S768x500_0_0 : ∀ a, (![0, 0] : Fin 2 → Nat) a + S768x500.size a ≤ S768x500.size a
  h_S768x500 : 0 < S768x500.numel
  shapeCasts_S768x500_S768x500 : S768x500.ShapeCasts S768x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S1024x500 : S1x500.Broadcasts S1024x500
  inb_S500x500_S500x500_0_0 : ∀ a, (![0, 0] : Fin 2 → Nat) a + S500x500.size a ≤ S500x500.size a
  h_S500x500 : 0 < S500x500.numel
  inb_S500x2_S500x2_0_0 : ∀ a, (![0, 0] : Fin 2 → Nat) a + S500x2.size a ≤ S500x2.size a
  h_S500x2 : 0 < S500x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  scatter_S117000_S468000x1_S468000_n_0_0_1_wf : ScatterDims.WF S117000 S468000x1 S468000 [] [0] [0] 1
  gather_S117000_S468000x1_S468000_n_0_n_n_0_1_1_wf : GatherDims.WF S117000 S468000x1 S468000 [] [0] [] [0] [] 1 ![1]
  dot_S3000x300_S300x300_S3000x300_1_0_0_1_n_n_wf : DotDims.WF S3000x300 S300x300 S3000x300 [1] [0] [0] [1] [] []
  gather_S117000x300_S468000x1_S468000x300_1_0_n_n_0_1_1300_wf : GatherDims.WF S117000x300 S468000x1 S468000x300 [1] [0] [] [0] [] 1 ![1, 300]
  scatter_S117000x300_S468000x1_S468000x300_1_0_0_1_wf : ScatterDims.WF S117000x300 S468000x1 S468000x300 [1] [0] [0] 1
  gather_S117000x300_S4096x1_S4096x300_1_0_n_n_0_1_1300_wf : GatherDims.WF S117000x300 S4096x1 S4096x300 [1] [0] [] [0] [] 1 ![1, 300]
  dot_S1024x300_S300x500_S1024x500_1_0_0_1_n_n_wf : DotDims.WF S1024x300 S300x500 S1024x500 [1] [0] [0] [1] [] []
  dot_S1024x768_S768x500_S1024x500_1_0_0_1_n_n_wf : DotDims.WF S1024x768 S768x500 S1024x500 [1] [0] [0] [1] [] []
  dot_S1024x500_S500x500_S1024x500_1_0_0_1_n_n_wf : DotDims.WF S1024x500 S500x500 S1024x500 [1] [0] [0] [1] [] []
  dot_S1024x500_S500x2_S1024x2_1_0_0_1_n_n_wf : DotDims.WF S1024x500 S500x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x300.size a ≤ S117000x300.size a
  hwx0_0 : ∀ i : grid0.Coords, EltTy.bits .f32 = 32 ∨ (Rect.block (s := S117000x300) S3000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x300.size a ≤ S300x300.size a
  hwx0_1 : ∀ i : grid0.Coords, EltTy.bits .f32 = 32 ∨ (Rect.block (s := S300x300) S300x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x300.size a ≤ S117000x300.size a
  hwx0_2 : ∀ i : grid0.Coords, EltTy.bits .f32 = 32 ∨ (Rect.block (s := S117000x300) S3000x300.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x300.size a ≤ S117000x300.size a
  hwx1_0 : ∀ i : grid1.Coords, EltTy.bits .f32 = 32 ∨ (Rect.block (s := S117000x300) S3000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x300.size a ≤ S300x300.size a
  hwx1_1 : ∀ i : grid1.Coords, EltTy.bits .f32 = 32 ∨ (Rect.block (s := S300x300) S300x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x300.size a ≤ S117000x300.size a
  hwx1_2 : ∀ i : grid1.Coords, EltTy.bits .f32 = 32 ∨ (Rect.block (s := S117000x300) S3000x300.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x300.size a ≤ S117000x300.size a
  hwx2_0 : ∀ i : grid2.Coords, EltTy.bits .f32 = 32 ∨ (Rect.block (s := S117000x300) S3000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x300.size a ≤ S117000x300.size a
  hwx2_1 : ∀ i : grid2.Coords, EltTy.bits .f32 = 32 ∨ (Rect.block (s := S117000x300) S3000x300.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x300.size a ≤ S4096x300.size a
  hwx3_0 : ∀ i : grid3.Coords, EltTy.bits .f32 = 32 ∨ (Rect.block (s := S4096x300) S1024x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x768.size a ≤ S4096x768.size a
  hwx3_1 : ∀ i : grid3.Coords, EltTy.bits .f32 = 32 ∨ (Rect.block (s := S4096x768) S1024x768.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S300x500.size a ≤ S300x500.size a
  hwx3_2 : ∀ i : grid3.Coords, EltTy.bits .f32 = 32 ∨ (Rect.block (s := S300x500) S300x500.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S768x500.size a ≤ S768x500.size a
  hwx3_3 : ∀ i : grid3.Coords, EltTy.bits .f32 = 32 ∨ (Rect.block (s := S768x500) S768x500.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x500.size a ≤ S1x500.size a
  hwx3_4 : ∀ i : grid3.Coords, EltTy.bits .f32 = 32 ∨ (Rect.block (s := S1x500) S1x500.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S500x500.size a ≤ S500x500.size a
  hwx3_5 : ∀ i : grid3.Coords, EltTy.bits .f32 = 32 ∨ (Rect.block (s := S500x500) S500x500.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x500.size a ≤ S1x500.size a
  hwx3_6 : ∀ i : grid3.Coords, EltTy.bits .f32 = 32 ∨ (Rect.block (s := S1x500) S1x500.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S500x2.size a ≤ S500x2.size a
  hwx3_7 : ∀ i : grid3.Coords, EltTy.bits .f32 = 32 ∨ (Rect.block (s := S500x2) S500x2.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x2.size a ≤ S1x2.size a
  hwx3_8 : ∀ i : grid3.Coords, EltTy.bits .f32 = 32 ∨ (Rect.block (s := S1x2) S1x2.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1024x2.size a ≤ S4096x2.size a
  hwx3_9 : ∀ i : grid3.Coords, EltTy.bits .f32 = 32 ∨ (Rect.block (s := S4096x2) S1024x2.size (cc3_transform_9 i) (hinb3_9 i)).WholeWords (EltTy.packing .f32)

variable [Facts₀]

def scatter_S117000_S468000x1_S468000_n_0_0_1 : ScatterDims S117000 S468000x1 S468000 where
  updateWindowDims := []
  insertedWindowDims := [0]
  scatterDimsToOperandDims := [0]
  indexVectorDim := 1
  wf := scatter_S117000_S468000x1_S468000_n_0_0_1_wf
def gather_S117000_S468000x1_S468000_n_0_n_n_0_1_1 : GatherDims S117000 S468000x1 S468000 where
  offsetDims := []
  collapsedSliceDims := [0]
  operandBatchingDims := []
  startIndicesBatchingDims := []
  startIndexMap := [0]
  indexVectorDim := 1
  sliceSizes := ![1]
  wf := gather_S117000_S468000x1_S468000_n_0_n_n_0_1_1_wf
def dot_S3000x300_S300x300_S3000x300_1_0_0_1_n_n : DotDims S3000x300 S300x300 S3000x300 where
  lhsContracting := [1]
  rhsContracting := [0]
  lhsNonContracting := [0]
  rhsNonContracting := [1]
  lhsBatch := []
  rhsBatch := []
  wf := dot_S3000x300_S300x300_S3000x300_1_0_0_1_n_n_wf
def gather_S117000x300_S468000x1_S468000x300_1_0_n_n_0_1_1300 : GatherDims S117000x300 S468000x1 S468000x300 where
  offsetDims := [1]
  collapsedSliceDims := [0]
  operandBatchingDims := []
  startIndicesBatchingDims := []
  startIndexMap := [0]
  indexVectorDim := 1
  sliceSizes := ![1, 300]
  wf := gather_S117000x300_S468000x1_S468000x300_1_0_n_n_0_1_1300_wf
def scatter_S117000x300_S468000x1_S468000x300_1_0_0_1 : ScatterDims S117000x300 S468000x1 S468000x300 where
  updateWindowDims := [1]
  insertedWindowDims := [0]
  scatterDimsToOperandDims := [0]
  indexVectorDim := 1
  wf := scatter_S117000x300_S468000x1_S468000x300_1_0_0_1_wf
def gather_S117000x300_S4096x1_S4096x300_1_0_n_n_0_1_1300 : GatherDims S117000x300 S4096x1 S4096x300 where
  offsetDims := [1]
  collapsedSliceDims := [0]
  operandBatchingDims := []
  startIndicesBatchingDims := []
  startIndexMap := [0]
  indexVectorDim := 1
  sliceSizes := ![1, 300]
  wf := gather_S117000x300_S4096x1_S4096x300_1_0_n_n_0_1_1300_wf
def dot_S1024x300_S300x500_S1024x500_1_0_0_1_n_n : DotDims S1024x300 S300x500 S1024x500 where
  lhsContracting := [1]
  rhsContracting := [0]
  lhsNonContracting := [0]
  rhsNonContracting := [1]
  lhsBatch := []
  rhsBatch := []
  wf := dot_S1024x300_S300x500_S1024x500_1_0_0_1_n_n_wf
def dot_S1024x768_S768x500_S1024x500_1_0_0_1_n_n : DotDims S1024x768 S768x500 S1024x500 where
  lhsContracting := [1]
  rhsContracting := [0]
  lhsNonContracting := [0]
  rhsNonContracting := [1]
  lhsBatch := []
  rhsBatch := []
  wf := dot_S1024x768_S768x500_S1024x500_1_0_0_1_n_n_wf
def dot_S1024x500_S500x500_S1024x500_1_0_0_1_n_n : DotDims S1024x500 S500x500 S1024x500 where
  lhsContracting := [1]
  rhsContracting := [0]
  lhsNonContracting := [0]
  rhsNonContracting := [1]
  lhsBatch := []
  rhsBatch := []
  wf := dot_S1024x500_S500x500_S1024x500_1_0_0_1_n_n_wf
def dot_S1024x500_S500x2_S1024x2_1_0_0_1_n_n : DotDims S1024x500 S500x2 S1024x2 where
  lhsContracting := [1]
  rhsContracting := [0]
  lhsNonContracting := [0]
  rhsNonContracting := [1]
  lhsBatch := []
  rhsBatch := []
  wf := dot_S1024x500_S500x2_S1024x2_1_0_0_1_n_n_wf

abbrev win0_0 : Pipeline.Window sig grid0 :=
  Pipeline.Window.ofSpec (Memref.whole main_arg4) S3000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S300x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S3000x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S3000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S300x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S3000x300.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S3000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S3000x300.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v59) S1024x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S1024x768.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S300x500.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S768x500.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x500.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S500x500.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S1x500.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg11) S500x2.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v64) S1x2.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v65) S1024x2.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S4096x768 : Shape := ⟨2, ![4096, 768]⟩
abbrev S4096 : Shape := ⟨1, ![4096]⟩
abbrev S468000 : Shape := ⟨1, ![468000]⟩
abbrev S117000x300 : Shape := ⟨2, ![117000, 300]⟩
abbrev S300x300 : Shape := ⟨2, ![300, 300]⟩
abbrev S1068x500 : Shape := ⟨2, ![1068, 500]⟩
abbrev S500 : Shape := ⟨1, ![500]⟩
abbrev S500x500 : Shape := ⟨2, ![500, 500]⟩
abbrev S500x2 : Shape := ⟨2, ![500, 2]⟩
abbrev S2 : Shape := ⟨1, ![2]⟩
abbrev S_ : Shape := ⟨0, ![]⟩
abbrev S117000 : Shape := ⟨1, ![117000]⟩
abbrev S468000x1 : Shape := ⟨2, ![468000, 1]⟩
abbrev S468000x300 : Shape := ⟨2, ![468000, 300]⟩
abbrev S4096x1 : Shape := ⟨2, ![4096, 1]⟩
abbrev S4096x300 : Shape := ⟨2, ![4096, 300]⟩
abbrev S4096x1068 : Shape := ⟨2, ![4096, 1068]⟩
abbrev S4096x500 : Shape := ⟨2, ![4096, 500]⟩
abbrev S1x500 : Shape := ⟨2, ![1, 500]⟩
abbrev S4096x2 : Shape := ⟨2, ![4096, 2]⟩
abbrev S1x2 : Shape := ⟨2, ![1, 2]⟩

abbrev nBuf : Space → Nat
  | .hbm => 136
  | .vmem => 0
  | .smem => 0
  | _ => 0

abbrev hbmTy0_0 (i : Nat) : BufTy := match i % 128 with
  | 0 => ⟨S4096x768, .f32⟩
  | 1 => ⟨S4096, .i32⟩
  | 2 => ⟨S468000, .i32⟩
  | 3 => ⟨S468000, .i32⟩
  | 4 => ⟨S117000x300, .f32⟩
  | 5 => ⟨S300x300, .f32⟩
  | 6 => ⟨S300x300, .f32⟩
  | 7 => ⟨S1068x500, .f32⟩
  | 8 => ⟨S500, .f32⟩
  | 9 => ⟨S500x500, .f32⟩
  | 10 => ⟨S500, .f32⟩
  | 11 => ⟨S500x2, .f32⟩
  | 12 => ⟨S2, .f32⟩
  | 13 => ⟨S_, .f32⟩
  | 14 => ⟨S468000, .f32⟩
  | 15 => ⟨S_, .f32⟩
  | 16 => ⟨S117000, .f32⟩
  | 17 => ⟨S468000x1, .i32⟩
  | 18 => ⟨S117000, .f32⟩
  | 19 => ⟨S_, .f32⟩
  | 20 => ⟨S117000, .f32⟩
  | 21 => ⟨S117000, .i1⟩
  | 22 => ⟨S_, .f32⟩
  | 23 => ⟨S117000, .f32⟩
  | 24 => ⟨S117000, .f32⟩
  | 25 => ⟨S_, .f32⟩
  | 26 => ⟨S_, .f32⟩
  | 27 => ⟨S117000, .f32⟩
  | 28 => ⟨S117000, .f32⟩
  | 29 => ⟨S_, .i32⟩
  | 30 => ⟨S468000, .i32⟩
  | 31 => ⟨S468000, .i1⟩
  | 32 => ⟨S_, .i32⟩
  | 33 => ⟨S468000, .i32⟩
  | 34 => ⟨S468000, .i32⟩
  | 35 => ⟨S468000, .i32⟩
  | 36 => ⟨S468000x1, .i32⟩
  | 37 => ⟨S468000, .f32⟩
  | 38 => ⟨S_, .i32⟩
  | 39 => ⟨S468000, .i32⟩
  | 40 => ⟨S468000, .i1⟩
  | 41 => ⟨S_, .i32⟩
  | 42 => ⟨S468000, .i32⟩
  | 43 => ⟨S468000, .i32⟩
  | 44 => ⟨S468000, .i32⟩
  | 45 => ⟨S468000x1, .i32⟩
  | 46 => ⟨S468000, .f32⟩
  | 47 => ⟨S468000, .f32⟩
  | 48 => ⟨S117000x300, .f32⟩
  | 49 => ⟨S468000x1, .f32⟩
  | 50 => ⟨S_, .i32⟩
  | 51 => ⟨S468000, .i32⟩
  | 52 => ⟨S468000, .i1⟩
  | 53 => ⟨S_, .i32⟩
  | 54 => ⟨S468000, .i32⟩
  | 55 => ⟨S468000, .i32⟩
  | 56 => ⟨S468000, .i32⟩
  | 57 => ⟨S468000x1, .i32⟩
  | 58 => ⟨S468000x300, .f32⟩
  | 59 => ⟨S468000x300, .f32⟩
  | 60 => ⟨S468000x300, .f32⟩
  | 61 => ⟨S_, .f32⟩
  | 62 => ⟨S117000x300, .f32⟩
  | 63 => ⟨S468000x1, .i32⟩
  | 64 => ⟨S117000x300, .f32⟩
  | 65 => ⟨S117000x300, .f32⟩
  | 66 => ⟨S117000x300, .f32⟩
  | 67 => ⟨S_, .f32⟩
  | 68 => ⟨S117000x300, .f32⟩
  | 69 => ⟨S117000x300, .f32⟩
  | 70 => ⟨S_, .f32⟩
  | 71 => ⟨S117000x300, .f32⟩
  | 72 => ⟨S117000x300, .f32⟩
  | 73 => ⟨S117000x300, .f32⟩
  | 74 => ⟨S468000x1, .f32⟩
  | 75 => ⟨S_, .i32⟩
  | 76 => ⟨S468000, .i32⟩
  | 77 => ⟨S468000, .i1⟩
  | 78 => ⟨S_, .i32⟩
  | 79 => ⟨S468000, .i32⟩
  | 80 => ⟨S468000, .i32⟩
  | 81 => ⟨S468000, .i32⟩
  | 82 => ⟨S468000x1, .i32⟩
  | 83 => ⟨S468000x300, .f32⟩
  | 84 => ⟨S468000x300, .f32⟩
  | 85 => ⟨S468000x300, .f32⟩
  | 86 => ⟨S_, .f32⟩
  | 87 => ⟨S117000x300, .f32⟩
  | 88 => ⟨S468000x1, .i32⟩
  | 89 => ⟨S117000x300, .f32⟩
  | 90 => ⟨S117000x300, .f32⟩
  | 91 => ⟨S117000x300, .f32⟩
  | 92 => ⟨S_, .f32⟩
  | 93 => ⟨S117000x300, .f32⟩
  | 94 => ⟨S117000x300, .f32⟩
  | 95 => ⟨S_, .f32⟩
  | 96 => ⟨S117000x300, .f32⟩
  | 97 => ⟨S117000x300, .f32⟩
  | 98 => ⟨S_, .i32⟩
  | 99 => ⟨S4096, .i32⟩
  | 100 => ⟨S4096, .i1⟩
  | 101 => ⟨S_, .i32⟩
  | 102 => ⟨S4096, .i32⟩
  | 103 => ⟨S4096, .i32⟩
  | 104 => ⟨S4096, .i32⟩
  | 105 => ⟨S4096x1, .i32⟩
  | 106 => ⟨S4096x300, .f32⟩
  | 107 => ⟨S4096x1068, .f32⟩
  | 108 => ⟨S4096x500, .f32⟩
  | 109 => ⟨S1x500, .f32⟩
  | 110 => ⟨S4096x500, .f32⟩
  | 111 => ⟨S4096x500, .f32⟩
  | 112 => ⟨S4096x500, .f32⟩
  | 113 => ⟨S4096x500, .f32⟩
  | 114 => ⟨S_, .f32⟩
  | 115 => ⟨S4096x500, .f32⟩
  | 116 => ⟨S4096x500, .f32⟩
  | 117 => ⟨S_, .f32⟩
  | 118 => ⟨S4096x500, .f32⟩
  | 119 => ⟨S4096x500, .f32⟩
  | 120 => ⟨S4096x500, .f32⟩
  | 121 => ⟨S1x500, .f32⟩
  | 122 => ⟨S4096x500, .f32⟩
  | 123 => ⟨S4096x500, .f32⟩
  | 124 => ⟨S4096x500, .f32⟩
  | 125 => ⟨S4096x500, .f32⟩
  | 126 => ⟨S_, .f32⟩
  | 127 => ⟨S4096x500, .f32⟩
  | _ => ⟨S4096x768, .f32⟩

abbrev hbmTy0_1 (i : Nat) : BufTy := match i % 128 with
  | 0 => ⟨S4096x500, .f32⟩
  | 1 => ⟨S_, .f32⟩
  | 2 => ⟨S4096x500, .f32⟩
  | 3 => ⟨S4096x500, .f32⟩
  | 4 => ⟨S4096x2, .f32⟩
  | 5 => ⟨S1x2, .f32⟩
  | 6 => ⟨S4096x2, .f32⟩
  | 7 => ⟨S4096x2, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_4 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_5 : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_10 : Ref sig .tc := ⟨.hbm, 67, rfl⟩
abbrev main_v40 : Ref sig .tc := ⟨.hbm, 68, rfl⟩
abbrev main_v41 : Ref sig .tc := ⟨.hbm, 69, rfl⟩
abbrev main_cst_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_c_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_14 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_15 : Ref sig .tc := ⟨.hbm, 92, rfl⟩
abbrev main_v60 : Ref sig .tc := ⟨.hbm, 93, rfl⟩
abbrev main_v61 : Ref sig .tc := ⟨.hbm, 94, rfl⟩
abbrev main_cst_16 : Ref sig .tc := ⟨.hbm, 95, rfl⟩
abbrev main_v62 : Ref sig .tc := ⟨.hbm, 96, rfl⟩
abbrev main_v63 : Ref sig .tc := ⟨.hbm, 97, rfl⟩
abbrev main_c_17 : Ref sig .tc := ⟨.hbm, 98, rfl⟩
abbrev main_v64 : Ref sig .tc := ⟨.hbm, 99, rfl⟩
abbrev main_v65 : Ref sig .tc := ⟨.hbm, 100, rfl⟩
abbrev main_c_18 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_19 : Ref sig .tc := ⟨.hbm, 114, rfl⟩
abbrev main_v78 : Ref sig .tc := ⟨.hbm, 115, rfl⟩
abbrev main_v79 : Ref sig .tc := ⟨.hbm, 116, rfl⟩
abbrev main_cst_20 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_21 : Ref sig .tc := ⟨.hbm, 126, rfl⟩
abbrev main_v88 : Ref sig .tc := ⟨.hbm, 127, rfl⟩
abbrev main_v89 : Ref sig .tc := ⟨.hbm, 128, rfl⟩
abbrev main_cst_22 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]

class Facts₀ : Prop where
  bcast_S_S468000 : S_.BroadcastsInDim S468000 (![] : Fin 0 → Fin S468000.rank)
  bcast_S_S117000 : S_.BroadcastsInDim S117000 (![] : Fin 0 → Fin S117000.rank)
  bcast_S468000_S468000x1_0 : S468000.BroadcastsInDim S468000x1 (![0] : Fin 1 → Fin S468000x1.rank)
  bcast_S468000x1_S468000x300_0_1 : S468000x1.BroadcastsInDim S468000x300 (![0, 1] : Fin 2 → Fin S468000x300.rank)
  bcast_S_S117000x300 : S_.BroadcastsInDim S117000x300 (![] : Fin 0 → Fin S117000x300.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x300_S4096x768_S4096x1068_d1 : Shape.Concatenates [S4096x300, S4096x768] S4096x1068 1
  bcast_S500_S1x500_1 : S500.BroadcastsInDim S1x500 (![1] : Fin 1 → Fin S1x500.rank)
  bcast_S1x500_S4096x500_0_1 : S1x500.BroadcastsInDim S4096x500 (![0, 1] : Fin 2 → Fin S4096x500.rank)
  bcast_S_S4096x500 : S_.BroadcastsInDim S4096x500 (![] : Fin 0 → Fin S4096x500.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  scatter_S117000_S468000x1_S468000_n_0_0_1_wf : ScatterDims.WF S117000 S468000x1 S468000 [] [0] [0] 1
  gather_S117000_S468000x1_S468000_n_0_n_n_0_1_1_wf : GatherDims.WF S117000 S468000x1 S468000 [] [0] [] [0] [] 1 ![1]
  dot_S117000x300_S300x300_S117000x300_1_0_0_1_n_n_wf : DotDims.WF S117000x300 S300x300 S117000x300 [1] [0] [0] [1] [] []
  gather_S117000x300_S468000x1_S468000x300_1_0_n_n_0_1_1300_wf : GatherDims.WF S117000x300 S468000x1 S468000x300 [1] [0] [] [0] [] 1 ![1, 300]
  scatter_S117000x300_S468000x1_S468000x300_1_0_0_1_wf : ScatterDims.WF S117000x300 S468000x1 S468000x300 [1] [0] [0] 1
  gather_S117000x300_S4096x1_S4096x300_1_0_n_n_0_1_1300_wf : GatherDims.WF S117000x300 S4096x1 S4096x300 [1] [0] [] [0] [] 1 ![1, 300]
  dot_S4096x1068_S1068x500_S4096x500_1_0_0_1_n_n_wf : DotDims.WF S4096x1068 S1068x500 S4096x500 [1] [0] [0] [1] [] []
  dot_S4096x500_S500x500_S4096x500_1_0_0_1_n_n_wf : DotDims.WF S4096x500 S500x500 S4096x500 [1] [0] [0] [1] [] []
  dot_S4096x500_S500x2_S4096x2_1_0_0_1_n_n_wf : DotDims.WF S4096x500 S500x2 S4096x2 [1] [0] [0] [1] [] []

variable [Facts₀]

def scatter_S117000_S468000x1_S468000_n_0_0_1 : ScatterDims S117000 S468000x1 S468000 where
  updateWindowDims := []
  insertedWindowDims := [0]
  scatterDimsToOperandDims := [0]
  indexVectorDim := 1
  wf := scatter_S117000_S468000x1_S468000_n_0_0_1_wf
def gather_S117000_S468000x1_S468000_n_0_n_n_0_1_1 : GatherDims S117000 S468000x1 S468000 where
  offsetDims := []
  collapsedSliceDims := [0]
  operandBatchingDims := []
  startIndicesBatchingDims := []
  startIndexMap := [0]
  indexVectorDim := 1
  sliceSizes := ![1]
  wf := gather_S117000_S468000x1_S468000_n_0_n_n_0_1_1_wf
def dot_S117000x300_S300x300_S117000x300_1_0_0_1_n_n : DotDims S117000x300 S300x300 S117000x300 where
  lhsContracting := [1]
  rhsContracting := [0]
  lhsNonContracting := [0]
  rhsNonContracting := [1]
  lhsBatch := []
  rhsBatch := []
  wf := dot_S117000x300_S300x300_S117000x300_1_0_0_1_n_n_wf
def gather_S117000x300_S468000x1_S468000x300_1_0_n_n_0_1_1300 : GatherDims S117000x300 S468000x1 S468000x300 where
  offsetDims := [1]
  collapsedSliceDims := [0]
  operandBatchingDims := []
  startIndicesBatchingDims := []
  startIndexMap := [0]
  indexVectorDim := 1
  sliceSizes := ![1, 300]
  wf := gather_S117000x300_S468000x1_S468000x300_1_0_n_n_0_1_1300_wf
def scatter_S117000x300_S468000x1_S468000x300_1_0_0_1 : ScatterDims S117000x300 S468000x1 S468000x300 where
  updateWindowDims := [1]
  insertedWindowDims := [0]
  scatterDimsToOperandDims := [0]
  indexVectorDim := 1
  wf := scatter_S117000x300_S468000x1_S468000x300_1_0_0_1_wf
def gather_S117000x300_S4096x1_S4096x300_1_0_n_n_0_1_1300 : GatherDims S117000x300 S4096x1 S4096x300 where
  offsetDims := [1]
  collapsedSliceDims := [0]
  operandBatchingDims := []
  startIndicesBatchingDims := []
  startIndexMap := [0]
  indexVectorDim := 1
  sliceSizes := ![1, 300]
  wf := gather_S117000x300_S4096x1_S4096x300_1_0_n_n_0_1_1300_wf
def dot_S4096x1068_S1068x500_S4096x500_1_0_0_1_n_n : DotDims S4096x1068 S1068x500 S4096x500 where
  lhsContracting := [1]
  rhsContracting := [0]
  lhsNonContracting := [0]
  rhsNonContracting := [1]
  lhsBatch := []
  rhsBatch := []
  wf := dot_S4096x1068_S1068x500_S4096x500_1_0_0_1_n_n_wf
def dot_S4096x500_S500x500_S4096x500_1_0_0_1_n_n : DotDims S4096x500 S500x500 S4096x500 where
  lhsContracting := [1]
  rhsContracting := [0]
  lhsNonContracting := [0]
  rhsNonContracting := [1]
  lhsBatch := []
  rhsBatch := []
  wf := dot_S4096x500_S500x500_S4096x500_1_0_0_1_n_n_wf
def dot_S4096x500_S500x2_S4096x2_1_0_0_1_n_n : DotDims S4096x500 S500x2 S4096x2 where
  lhsContracting := [1]
  rhsContracting := [0]
  lhsNonContracting := [0]
  rhsNonContracting := [1]
  lhsBatch := []
  rhsBatch := []
  wf := dot_S4096x500_S500x2_S4096x2_1_0_0_1_n_n_wf

class Facts : Prop extends Facts₀ where

variable [Facts]
-- ==== Proof.KRun.lean ====
/-
  The idealized kernel's run with its result named.

  @main is ten segments: host operations, then the first matrix product's region, host operations (the first
  propagation over the edge list), the logistic-then-product region, host operations (the second propagation), the
  logistic region, host operations (the row gather, the two slices of the first layer's weights, the three biases as
  one-row matrices), and the head's region.  The buffer contents at each boundary are a fold from the launch memory:
  a host stretch applies its operations, a region replaces its arrays by what its write-backs leave.  Every weakly
  fair execution terminates without a fault in a state where every buffer outside a kernel's scope holds the last
  boundary's contents; read at the result buffer that is the statement below, and read at an argument it is the
  launch contents.
-/
import proofs.«121087_j25692494365029_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and every argument as launched. -/
theorem run : θ_run defs (onTc (τ := τ) (main (F := F))) ⟨m, fun _ => 0, ρ⟩ (fun r => ∀ c : Dev nD,
      r.2.mem ((c.tc : Thread nD τ).loc main_v65) = W10 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v65 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.Named

end
-- ==== Proof.FoldArgs.lean ====
/-
  Buffers no operation writes, read back through the boundaries.

  No host operation and no region of the kernel's @main writes an argument, so at every boundary an argument's
  buffer holds its launch contents; and the edge weights, computed before the first region, are read again by
  both propagations, so they keep their value through the first two regions and the host operations between them.
-/
import proofs.«121087_j25692494365029_1_alg».proof.Proof.Gen.KernelIdeal.Frame

set_option maxRecDepth 16384

noncomputable section

namespace Cert.KernelIdeal.Fold

open Cert.KernelIdeal Cert.KernelIdeal.Gen Idealize.ShloMosaic Idealize.ShloMosaic.TcCoe Idealize.SL.Sem

/-- A buffer that none of a literal list of host operations writes keeps its contents through them. -/
macro "untouched_by " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg)

/-! ### Argument 0 -/
theorem W3_a0 (c : Dev nD) : W3 m ρ c (Proc.devRef .tc main_arg0) = m ((c : Thread nD τ).loc main_arg0) :=
  calc W3 m ρ c (Proc.devRef .tc main_arg0)
    _ = W2 m ρ c (Proc.devRef .tc main_arg0) := by untouched_by hostOps0_2
    _ = W1 m ρ c (Proc.devRef .tc main_arg0) := by untouched_by hostOps0_1
    _ = W0 m ρ c (Proc.devRef .tc main_arg0) := by untouched_by hostOps0
    _ = m ((c : Thread nD τ).loc main_arg0) := rfl
theorem W4_a0 (c : Dev nD) : W4 m ρ c (Proc.devRef .tc main_arg0) = m ((c : Thread nD τ).loc main_arg0) :=
  (W4_of_ne m ρ c main_arg0 (by decide)).trans (W3_a0 m ρ c)
theorem W5_a0 (c : Dev nD) : W5 m ρ c (Proc.devRef .tc main_arg0) = m ((c : Thread nD τ).loc main_arg0) :=
  (show W5 m ρ c (Proc.devRef .tc main_arg0) = W4 m ρ c (Proc.devRef .tc main_arg0) by untouched_by hostOps1).trans (W4_a0 m ρ c)
theorem W6_a0 (c : Dev nD) : W6 m ρ c (Proc.devRef .tc main_arg0) = m ((c : Thread nD τ).loc main_arg0) :=
  (W6_of_ne m ρ c main_arg0 (by decide)).trans (W5_a0 m ρ c)
theorem W7_a0 (c : Dev nD) : W7 m ρ c (Proc.devRef .tc main_arg0) = m ((c : Thread nD τ).loc main_arg0) :=
  (show W7 m ρ c (Proc.devRef .tc main_arg0) = W6 m ρ c (Proc.devRef .tc main_arg0) by untouched_by hostOps2).trans (W6_a0 m ρ c)
theorem W8_a0 (c : Dev nD) : W8 m ρ c (Proc.devRef .tc main_arg0) = m ((c : Thread nD τ).loc main_arg0) :=
  (W8_of_ne m ρ c main_arg0 (by decide)).trans (W7_a0 m ρ c)
theorem W9_a0 (c : Dev nD) : W9 m ρ c (Proc.devRef .tc main_arg0) = m ((c : Thread nD τ).loc main_arg0) :=
  (show W9 m ρ c (Proc.devRef .tc main_arg0) = W8 m ρ c (Proc.devRef .tc main_arg0) by untouched_by hostOps3).trans (W8_a0 m ρ c)

/-! ### Argument 1 -/
theorem W3_a1 (c : Dev nD) : W3 m ρ c (Proc.devRef .tc main_arg1) = m ((c : Thread nD τ).loc main_arg1) :=
  calc W3 m ρ c (Proc.devRef .tc main_arg1)
    _ = W2 m ρ c (Proc.devRef .tc main_arg1) := by untouched_by hostOps0_2
    _ = W1 m ρ c (Proc.devRef .tc main_arg1) := by untouched_by hostOps0_1
    _ = W0 m ρ c (Proc.devRef .tc main_arg1) := by untouched_by hostOps0
    _ = m ((c : Thread nD τ).loc main_arg1) := rfl
theorem W4_a1 (c : Dev nD) : W4 m ρ c (Proc.devRef .tc main_arg1) = m ((c : Thread nD τ).loc main_arg1) :=
  (W4_of_ne m ρ c main_arg1 (by decide)).trans (W3_a1 m ρ c)
theorem W5_a1 (c : Dev nD) : W5 m ρ c (Proc.devRef .tc main_arg1) = m ((c : Thread nD τ).loc main_arg1) :=
  (show W5 m ρ c (Proc.devRef .tc main_arg1) = W4 m ρ c (Proc.devRef .tc main_arg1) by untouched_by hostOps1).trans (W4_a1 m ρ c)
theorem W6_a1 (c : Dev nD) : W6 m ρ c (Proc.devRef .tc main_arg1) = m ((c : Thread nD τ).loc main_arg1) :=
  (W6_of_ne m ρ c main_arg1 (by decide)).trans (W5_a1 m ρ c)
theorem W7_a1 (c : Dev nD) : W7 m ρ c (Proc.devRef .tc main_arg1) = m ((c : Thread nD τ).loc main_arg1) :=
  (show W7 m ρ c (Proc.devRef .tc main_arg1) = W6 m ρ c (Proc.devRef .tc main_arg1) by untouched_by hostOps2).trans (W6_a1 m ρ c)
theorem W8_a1 (c : Dev nD) : W8 m ρ c (Proc.devRef .tc main_arg1) = m ((c : Thread nD τ).loc main_arg1) :=
  (W8_of_ne m ρ c main_arg1 (by decide)).trans (W7_a1 m ρ c)

/-! ### Argument 2 -/
theorem W3_a2 (c : Dev nD) : W3 m ρ c (Proc.devRef .tc main_arg2) = m ((c : Thread nD τ).loc main_arg2) :=
  calc W3 m ρ c (Proc.devRef .tc main_arg2)
    _ = W2 m ρ c (Proc.devRef .tc main_arg2) := by untouched_by hostOps0_2
    _ = W1 m ρ c (Proc.devRef .tc main_arg2) := by untouched_by hostOps0_1
    _ = W0 m ρ c (Proc.devRef .tc main_arg2) := by untouched_by hostOps0
    _ = m ((c : Thread nD τ).loc main_arg2) := rfl
theorem W4_a2 (c : Dev nD) : W4 m ρ c (Proc.devRef .tc main_arg2) = m ((c : Thread nD τ).loc main_arg2) :=
  (W4_of_ne m ρ c main_arg2 (by decide)).trans (W3_a2 m ρ c)
theorem W5_a2 (c : Dev nD) : W5 m ρ c (Proc.devRef .tc main_arg2) = m ((c : Thread nD τ).loc main_arg2) :=
  (show W5 m ρ c (Proc.devRef .tc main_arg2) = W4 m ρ c (Proc.devRef .tc main_arg2) by untouched_by hostOps1).trans (W4_a2 m ρ c)
theorem W6_a2 (c : Dev nD) : W6 m ρ c (Proc.devRef .tc main_arg2) = m ((c : Thread nD τ).loc main_arg2) :=
  (W6_of_ne m ρ c main_arg2 (by decide)).trans (W5_a2 m ρ c)

/-! ### Argument 3 -/
theorem W3_a3 (c : Dev nD) : W3 m ρ c (Proc.devRef .tc main_arg3) = m ((c : Thread nD τ).loc main_arg3) :=
  calc W3 m ρ c (Proc.devRef .tc main_arg3)
    _ = W2 m ρ c (Proc.devRef .tc main_arg3) := by untouched_by hostOps0_2
    _ = W1 m ρ c (Proc.devRef .tc main_arg3) := by untouched_by hostOps0_1
    _ = W0 m ρ c (Proc.devRef .tc main_arg3) := by untouched_by hostOps0
    _ = m ((c : Thread nD τ).loc main_arg3) := rfl
theorem W4_a3 (c : Dev nD) : W4 m ρ c (Proc.devRef .tc main_arg3) = m ((c : Thread nD τ).loc main_arg3) :=
  (W4_of_ne m ρ c main_arg3 (by decide)).trans (W3_a3 m ρ c)
theorem W5_a3 (c : Dev nD) : W5 m ρ c (Proc.devRef .tc main_arg3) = m ((c : Thread nD τ).loc main_arg3) :=
  (show W5 m ρ c (Proc.devRef .tc main_arg3) = W4 m ρ c (Proc.devRef .tc main_arg3) by untouched_by hostOps1).trans (W4_a3 m ρ c)
theorem W6_a3 (c : Dev nD) : W6 m ρ c (Proc.devRef .tc main_arg3) = m ((c : Thread nD τ).loc main_arg3) :=
  (W6_of_ne m ρ c main_arg3 (by decide)).trans (W5_a3 m ρ c)

/-! ### Argument 4 -/
theorem W3_a4 (c : Dev nD) : W3 m ρ c (Proc.devRef .tc main_arg4) = m ((c : Thread nD τ).loc main_arg4) :=
  calc W3 m ρ c (Proc.devRef .tc main_arg4)
    _ = W2 m ρ c (Proc.devRef .tc main_arg4) := by untouched_by hostOps0_2
    _ = W1 m ρ c (Proc.devRef .tc main_arg4) := by untouched_by hostOps0_1
    _ = W0 m ρ c (Proc.devRef .tc main_arg4) := by untouched_by hostOps0
    _ = m ((c : Thread nD τ).loc main_arg4) := rfl

/-! ### Argument 5 -/
theorem W3_a5 (c : Dev nD) : W3 m ρ c (Proc.devRef .tc main_arg5) = m ((c : Thread nD τ).loc main_arg5) :=
  calc W3 m ρ c (Proc.devRef .tc main_arg5)
    _ = W2 m ρ c (Proc.devRef .tc main_arg5) := by untouched_by hostOps0_2
    _ = W1 m ρ c (Proc.devRef .tc main_arg5) := by untouched_by hostOps0_1
    _ = W0 m ρ c (Proc.devRef .tc main_arg5) := by untouched_by hostOps0
    _ = m ((c : Thread nD τ).loc main_arg5) := rfl

/-! ### Argument 6 -/
theorem W3_a6 (c : Dev nD) : W3 m ρ c (Proc.devRef .tc main_arg6) = m ((c : Thread nD τ).loc main_arg6) :=
  calc W3 m ρ c (Proc.devRef .tc main_arg6)
    _ = W2 m ρ c (Proc.devRef .tc main_arg6) := by untouched_by hostOps0_2
    _ = W1 m ρ c (Proc.devRef .tc main_arg6) := by untouched_by hostOps0_1
    _ = W0 m ρ c (Proc.devRef .tc main_arg6) := by untouched_by hostOps0
    _ = m ((c : Thread nD τ).loc main_arg6) := rfl
theorem W4_a6 (c : Dev nD) : W4 m ρ c (Proc.devRef .tc main_arg6) = m ((c : Thread nD τ).loc main_arg6) :=
  (W4_of_ne m ρ c main_arg6 (by decide)).trans (W3_a6 m ρ c)
theorem W5_a6 (c : Dev nD) : W5 m ρ c (Proc.devRef .tc main_arg6) = m ((c : Thread nD τ).loc main_arg6) :=
  (show W5 m ρ c (Proc.devRef .tc main_arg6) = W4 m ρ c (Proc.devRef .tc main_arg6) by untouched_by hostOps1).trans (W4_a6 m ρ c)

/-! ### Argument 7 -/
theorem W3_a7 (c : Dev nD) : W3 m ρ c (Proc.devRef .tc main_arg7) = m ((c : Thread nD τ).loc main_arg7) :=
  calc W3 m ρ c (Proc.devRef .tc main_arg7)
    _ = W2 m ρ c (Proc.devRef .tc main_arg7) := by untouched_by hostOps0_2
    _ = W1 m ρ c (Proc.devRef .tc main_arg7) := by untouched_by hostOps0_1
    _ = W0 m ρ c (Proc.devRef .tc main_arg7) := by untouched_by hostOps0
    _ = m ((c : Thread nD τ).loc main_arg7) := rfl
theorem W4_a7 (c : Dev nD) : W4 m ρ c (Proc.devRef .tc main_arg7) = m ((c : Thread nD τ).loc main_arg7) :=
  (W4_of_ne m ρ c main_arg7 (by decide)).trans (W3_a7 m ρ c)
theorem W5_a7 (c : Dev nD) : W5 m ρ c (Proc.devRef .tc main_arg7) = m ((c : Thread nD τ).loc main_arg7) :=
  (show W5 m ρ c (Proc.devRef .tc main_arg7) = W4 m ρ c (Proc.devRef .tc main_arg7) by untouched_by hostOps1).trans (W4_a7 m ρ c)
theorem W6_a7 (c : Dev nD) : W6 m ρ c (Proc.devRef .tc main_arg7) = m ((c : Thread nD τ).loc main_arg7) :=
  (W6_of_ne m ρ c main_arg7 (by decide)).trans (W5_a7 m ρ c)
theorem W7_a7 (c : Dev nD) : W7 m ρ c (Proc.devRef .tc main_arg7) = m ((c : Thread nD τ).loc main_arg7) :=
  (show W7 m ρ c (Proc.devRef .tc main_arg7) = W6 m ρ c (Proc.devRef .tc main_arg7) by untouched_by hostOps2).trans (W6_a7 m ρ c)
theorem W8_a7 (c : Dev nD) : W8 m ρ c (Proc.devRef .tc main_arg7) = m ((c : Thread nD τ).loc main_arg7) :=
  (W8_of_ne m ρ c main_arg7 (by decide)).trans (W7_a7 m ρ c)

/-! ### Argument 8 -/
theorem W3_a8 (c : Dev nD) : W3 m ρ c (Proc.devRef .tc main_arg8) = m ((c : Thread nD τ).loc main_arg8) :=
  calc W3 m ρ c (Proc.devRef .tc main_arg8)
    _ = W2 m ρ c (Proc.devRef .tc main_arg8) := by untouched_by hostOps0_2
    _ = W1 m ρ c (Proc.devRef .tc main_arg8) := by untouched_by hostOps0_1
    _ = W0 m ρ c (Proc.devRef .tc main_arg8) := by untouched_by hostOps0
    _ = m ((c : Thread nD τ).loc main_arg8) := rfl
theorem W4_a8 (c : Dev nD) : W4 m ρ c (Proc.devRef .tc main_arg8) = m ((c : Thread nD τ).loc main_arg8) :=
  (W4_of_ne m ρ c main_arg8 (by decide)).trans (W3_a8 m ρ c)
theorem W5_a8 (c : Dev nD) : W5 m ρ c (Proc.devRef .tc main_arg8) = m ((c : Thread nD τ).loc main_arg8) :=
  (show W5 m ρ c (Proc.devRef .tc main_arg8) = W4 m ρ c (Proc.devRef .tc main_arg8) by untouched_by hostOps1).trans (W4_a8 m ρ c)
theorem W6_a8 (c : Dev nD) : W6 m ρ c (Proc.devRef .tc main_arg8) = m ((c : Thread nD τ).loc main_arg8) :=
  (W6_of_ne m ρ c main_arg8 (by decide)).trans (W5_a8 m ρ c)
theorem W7_a8 (c : Dev nD) : W7 m ρ c (Proc.devRef .tc main_arg8) = m ((c : Thread nD τ).loc main_arg8) :=
  (show W7 m ρ c (Proc.devRef .tc main_arg8) = W6 m ρ c (Proc.devRef .tc main_arg8) by untouched_by hostOps2).trans (W6_a8 m ρ c)
theorem W8_a8 (c : Dev nD) : W8 m ρ c (Proc.devRef .tc main_arg8) = m ((c : Thread nD τ).loc main_arg8) :=
  (W8_of_ne m ρ c main_arg8 (by decide)).trans (W7_a8 m ρ c)

/-! ### Argument 9 -/
theorem W3_a9 (c : Dev nD) : W3 m ρ c (Proc.devRef .tc main_arg9) = m ((c : Thread nD τ).loc main_arg9) :=
  calc W3 m ρ c (Proc.devRef .tc main_arg9)
    _ = W2 m ρ c (Proc.devRef .tc main_arg9) := by untouched_by hostOps0_2
    _ = W1 m ρ c (Proc.devRef .tc main_arg9) := by untouched_by hostOps0_1
    _ = W0 m ρ c (Proc.devRef .tc main_arg9) := by untouched_by hostOps0
    _ = m ((c : Thread nD τ).loc main_arg9) := rfl
theorem W4_a9 (c : Dev nD) : W4 m ρ c (Proc.devRef .tc main_arg9) = m ((c : Thread nD τ).loc main_arg9) :=
  (W4_of_ne m ρ c main_arg9 (by decide)).trans (W3_a9 m ρ c)
theorem W5_a9 (c : Dev nD) : W5 m ρ c (Proc.devRef .tc main_arg9) = m ((c : Thread nD τ).loc main_arg9) :=
  (show W5 m ρ c (Proc.devRef .tc main_arg9) = W4 m ρ c (Proc.devRef .tc main_arg9) by untouched_by hostOps1).trans (W4_a9 m ρ c)
theorem W6_a9 (c : Dev nD) : W6 m ρ c (Proc.devRef .tc main_arg9) = m ((c : Thread nD τ).loc main_arg9) :=
  (W6_of_ne m ρ c main_arg9 (by decide)).trans (W5_a9 m ρ c)
theorem W7_a9 (c : Dev nD) : W7 m ρ c (Proc.devRef .tc main_arg9) = m ((c : Thread nD τ).loc main_arg9) :=
  (show W7 m ρ c (Proc.devRef .tc main_arg9) = W6 m ρ c (Proc.devRef .tc main_arg9) by untouched_by hostOps2).trans (W6_a9 m ρ c)
theorem W8_a9 (c : Dev nD) : W8 m ρ c (Proc.devRef .tc main_arg9) = m ((c : Thread nD τ).loc main_arg9) :=
  (W8_of_ne m ρ c main_arg9 (by decide)).trans (W7_a9 m ρ c)
theorem W9_a9 (c : Dev nD) : W9 m ρ c (Proc.devRef .tc main_arg9) = m ((c : Thread nD τ).loc main_arg9) :=
  (show W9 m ρ c (Proc.devRef .tc main_arg9) = W8 m ρ c (Proc.devRef .tc main_arg9) by untouched_by hostOps3).trans (W8_a9 m ρ c)

/-! ### Argument 10 -/
theorem W3_a10 (c : Dev nD) : W3 m ρ c (Proc.devRef .tc main_arg10) = m ((c : Thread nD τ).loc main_arg10) :=
  calc W3 m ρ c (Proc.devRef .tc main_arg10)
    _ = W2 m ρ c (Proc.devRef .tc main_arg10) := by untouched_by hostOps0_2
    _ = W1 m ρ c (Proc.devRef .tc main_arg10) := by untouched_by hostOps0_1
    _ = W0 m ρ c (Proc.devRef .tc main_arg10) := by untouched_by hostOps0
    _ = m ((c : Thread nD τ).loc main_arg10) := rfl
theorem W4_a10 (c : Dev nD) : W4 m ρ c (Proc.devRef .tc main_arg10) = m ((c : Thread nD τ).loc main_arg10) :=
  (W4_of_ne m ρ c main_arg10 (by decide)).trans (W3_a10 m ρ c)
theorem W5_a10 (c : Dev nD) : W5 m ρ c (Proc.devRef .tc main_arg10) = m ((c : Thread nD τ).loc main_arg10) :=
  (show W5 m ρ c (Proc.devRef .tc main_arg10) = W4 m ρ c (Proc.devRef .tc main_arg10) by untouched_by hostOps1).trans (W4_a10 m ρ c)
theorem W6_a10 (c : Dev nD) : W6 m ρ c (Proc.devRef .tc main_arg10) = m ((c : Thread nD τ).loc main_arg10) :=
  (W6_of_ne m ρ c main_arg10 (by decide)).trans (W5_a10 m ρ c)
theorem W7_a10 (c : Dev nD) : W7 m ρ c (Proc.devRef .tc main_arg10) = m ((c : Thread nD τ).loc main_arg10) :=
  (show W7 m ρ c (Proc.devRef .tc main_arg10) = W6 m ρ c (Proc.devRef .tc main_arg10) by untouched_by hostOps2).trans (W6_a10 m ρ c)
theorem W8_a10 (c : Dev nD) : W8 m ρ c (Proc.devRef .tc main_arg10) = m ((c : Thread nD τ).loc main_arg10) :=
  (W8_of_ne m ρ c main_arg10 (by decide)).trans (W7_a10 m ρ c)

/-! ### Argument 11 -/
theorem W3_a11 (c : Dev nD) : W3 m ρ c (Proc.devRef .tc main_arg11) = m ((c : Thread nD τ).loc main_arg11) :=
  calc W3 m ρ c (Proc.devRef .tc main_arg11)
    _ = W2 m ρ c (Proc.devRef .tc main_arg11) := by untouched_by hostOps0_2
    _ = W1 m ρ c (Proc.devRef .tc main_arg11) := by untouched_by hostOps0_1
    _ = W0 m ρ c (Proc.devRef .tc main_arg11) := by untouched_by hostOps0
    _ = m ((c : Thread nD τ).loc main_arg11) := rfl
theorem W4_a11 (c : Dev nD) : W4 m ρ c (Proc.devRef .tc main_arg11) = m ((c : Thread nD τ).loc main_arg11) :=
  (W4_of_ne m ρ c main_arg11 (by decide)).trans (W3_a11 m ρ c)
theorem W5_a11 (c : Dev nD) : W5 m ρ c (Proc.devRef .tc main_arg11) = m ((c : Thread nD τ).loc main_arg11) :=
  (show W5 m ρ c (Proc.devRef .tc main_arg11) = W4 m ρ c (Proc.devRef .tc main_arg11) by untouched_by hostOps1).trans (W4_a11 m ρ c)
theorem W6_a11 (c : Dev nD) : W6 m ρ c (Proc.devRef .tc main_arg11) = m ((c : Thread nD τ).loc main_arg11) :=
  (W6_of_ne m ρ c main_arg11 (by decide)).trans (W5_a11 m ρ c)
theorem W7_a11 (c : Dev nD) : W7 m ρ c (Proc.devRef .tc main_arg11) = m ((c : Thread nD τ).loc main_arg11) :=
  (show W7 m ρ c (Proc.devRef .tc main_arg11) = W6 m ρ c (Proc.devRef .tc main_arg11) by untouched_by hostOps2).trans (W6_a11 m ρ c)
theorem W8_a11 (c : Dev nD) : W8 m ρ c (Proc.devRef .tc main_arg11) = m ((c : Thread nD τ).loc main_arg11) :=
  (W8_of_ne m ρ c main_arg11 (by decide)).trans (W7_a11 m ρ c)
theorem W9_a11 (c : Dev nD) : W9 m ρ c (Proc.devRef .tc main_arg11) = m ((c : Thread nD τ).loc main_arg11) :=
  (show W9 m ρ c (Proc.devRef .tc main_arg11) = W8 m ρ c (Proc.devRef .tc main_arg11) by untouched_by hostOps3).trans (W8_a11 m ρ c)

/-! ### Argument 12 -/
theorem W3_a12 (c : Dev nD) : W3 m ρ c (Proc.devRef .tc main_arg12) = m ((c : Thread nD τ).loc main_arg12) :=
  calc W3 m ρ c (Proc.devRef .tc main_arg12)
    _ = W2 m ρ c (Proc.devRef .tc main_arg12) := by untouched_by hostOps0_2
    _ = W1 m ρ c (Proc.devRef .tc main_arg12) := by untouched_by hostOps0_1
    _ = W0 m ρ c (Proc.devRef .tc main_arg12) := by untouched_by hostOps0
    _ = m ((c : Thread nD τ).loc main_arg12) := rfl
theorem W4_a12 (c : Dev nD) : W4 m ρ c (Proc.devRef .tc main_arg12) = m ((c : Thread nD τ).loc main_arg12) :=
  (W4_of_ne m ρ c main_arg12 (by decide)).trans (W3_a12 m ρ c)
theorem W5_a12 (c : Dev nD) : W5 m ρ c (Proc.devRef .tc main_arg12) = m ((c : Thread nD τ).loc main_arg12) :=
  (show W5 m ρ c (Proc.devRef .tc main_arg12) = W4 m ρ c (Proc.devRef .tc main_arg12) by untouched_by hostOps1).trans (W4_a12 m ρ c)
theorem W6_a12 (c : Dev nD) : W6 m ρ c (Proc.devRef .tc main_arg12) = m ((c : Thread nD τ).loc main_arg12) :=
  (W6_of_ne m ρ c main_arg12 (by decide)).trans (W5_a12 m ρ c)
theorem W7_a12 (c : Dev nD) : W7 m ρ c (Proc.devRef .tc main_arg12) = m ((c : Thread nD τ).loc main_arg12) :=
  (show W7 m ρ c (Proc.devRef .tc main_arg12) = W6 m ρ c (Proc.devRef .tc main_arg12) by untouched_by hostOps2).trans (W6_a12 m ρ c)
theorem W8_a12 (c : Dev nD) : W8 m ρ c (Proc.devRef .tc main_arg12) = m ((c : Thread nD τ).loc main_arg12) :=
  (W8_of_ne m ρ c main_arg12 (by decide)).trans (W7_a12 m ρ c)

/-! ### The edge weights -/
theorem W4_v23 (c : Dev nD) : W4 m ρ c (Proc.devRef .tc main_v23) = W3 m ρ c (Proc.devRef .tc main_v23) :=
  W4_of_ne m ρ c main_v23 (by decide)
theorem W5_v23 (c : Dev nD) : W5 m ρ c (Proc.devRef .tc main_v23) = W3 m ρ c (Proc.devRef .tc main_v23) :=
  (show W5 m ρ c (Proc.devRef .tc main_v23) = W4 m ρ c (Proc.devRef .tc main_v23) by untouched_by hostOps1).trans (W4_v23 m ρ c)
theorem W6_v23 (c : Dev nD) : W6 m ρ c (Proc.devRef .tc main_v23) = W3 m ρ c (Proc.devRef .tc main_v23) :=
  (W6_of_ne m ρ c main_v23 (by decide)).trans (W5_v23 m ρ c)

end Cert.KernelIdeal.Fold

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.KPay.lean ====
/-
  The four kernel bodies read at an index, on the extended reals.

  A change of float format is the identity there, a product into a zero accumulator is the sum over the contracted
  axis, and the logistic operation is the logistic function.  So the first body's block is rows of `X · W`; the
  second's rows of `logistic(Z) · W`; the third's `logistic(Z)` entry by entry; and the head's block is
  `logistic(logistic(h · Wa₁ + x · Wa₂ + ba) · Wb + bb) · Wc + bc`, the biases being one-row matrices repeated down
  the rows.
-/
import proofs.«121087_j25692494365029_1_alg».proof.Proof.Gen.KernelIdeal.Skeleton
import proofs.«121087_j25692494365029_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The dimension numbers: each contracts the left operand's columns against the right operand's rows -/

theorem dA_l0 (j : S3000x300.Idx) (q : dot_S3000x300_S300x300_S3000x300_1_0_0_1_n_n.contr.Idx) : (dot_S3000x300_S300x300_S3000x300_1_0_0_1_n_n.lhsIdx j q 0).val = (j 0).val := by
  unfold DotDims.lhsIdx
  rw [dif_neg (show ¬(0 : Fin S3000x300.rank) ∈ dot_S3000x300_S300x300_S3000x300_1_0_0_1_n_n.lhsBatch by decide), dif_pos (show (0 : Fin S3000x300.rank) ∈ dot_S3000x300_S300x300_S3000x300_1_0_0_1_n_n.lhsNonContracting by decide)]
  rfl
theorem dA_l1 (j : S3000x300.Idx) (q : dot_S3000x300_S300x300_S3000x300_1_0_0_1_n_n.contr.Idx) : (dot_S3000x300_S300x300_S3000x300_1_0_0_1_n_n.lhsIdx j q 1).val = (q ⟨0, by decide⟩).val :=
  dot_S3000x300_S300x300_S3000x300_1_0_0_1_n_n.lhsIdx_val_of_single rfl j q
theorem dA_r0 (j : S3000x300.Idx) (q : dot_S3000x300_S300x300_S3000x300_1_0_0_1_n_n.contr.Idx) : (dot_S3000x300_S300x300_S3000x300_1_0_0_1_n_n.rhsIdx j q 0).val = (q ⟨0, by decide⟩).val :=
  dot_S3000x300_S300x300_S3000x300_1_0_0_1_n_n.rhsIdx_val_of_single rfl j q
theorem dA_r1 (j : S3000x300.Idx) (q : dot_S3000x300_S300x300_S3000x300_1_0_0_1_n_n.contr.Idx) : (dot_S3000x300_S300x300_S3000x300_1_0_0_1_n_n.rhsIdx j q 1).val = (j 1).val := by
  unfold DotDims.rhsIdx
  rw [dif_neg (show ¬(1 : Fin S300x300.rank) ∈ dot_S3000x300_S300x300_S3000x300_1_0_0_1_n_n.rhsBatch by decide), dif_pos (show (1 : Fin S300x300.rank) ∈ dot_S3000x300_S300x300_S3000x300_1_0_0_1_n_n.rhsNonContracting by decide)]
  rfl
/-- The product with these dimension numbers into a zero accumulator, read at an index: the sum over the contracted
    axis. -/
theorem dA_mm {φ₁ φ₂ : FTy} (l : FVec Ideal S3000x300 φ₁) (r : FVec Ideal S300x300 φ₂) (j : S3000x300.Idx) :
    FloatOps.matmul dot_S3000x300_S300x300_S3000x300_1_0_0_1_n_n none l r (constant S3000x300 .f32 0x00000000#32) j = ∑ k, l (ix2 (j 0) k) * r (ix2 k (j 1)) :=
  Cert.Lib.PlainDot.matmul_zero_apply dot_S3000x300_S300x300_S3000x300_1_0_0_1_n_n rfl rfl dA_l0 dA_l1 dA_r0 dA_r1 none l r j

theorem dB_l0 (j : S1024x500.Idx) (q : dot_S1024x300_S300x500_S1024x500_1_0_0_1_n_n.contr.Idx) : (dot_S1024x300_S300x500_S1024x500_1_0_0_1_n_n.lhsIdx j q 0).val = (j 0).val := by
  unfold DotDims.lhsIdx
  rw [dif_neg (show ¬(0 : Fin S1024x300.rank) ∈ dot_S1024x300_S300x500_S1024x500_1_0_0_1_n_n.lhsBatch by decide), dif_pos (show (0 : Fin S1024x300.rank) ∈ dot_S1024x300_S300x500_S1024x500_1_0_0_1_n_n.lhsNonContracting by decide)]
  rfl
theorem dB_l1 (j : S1024x500.Idx) (q : dot_S1024x300_S300x500_S1024x500_1_0_0_1_n_n.contr.Idx) : (dot_S1024x300_S300x500_S1024x500_1_0_0_1_n_n.lhsIdx j q 1).val = (q ⟨0, by decide⟩).val :=
  dot_S1024x300_S300x500_S1024x500_1_0_0_1_n_n.lhsIdx_val_of_single rfl j q
theorem dB_r0 (j : S1024x500.Idx) (q : dot_S1024x300_S300x500_S1024x500_1_0_0_1_n_n.contr.Idx) : (dot_S1024x300_S300x500_S1024x500_1_0_0_1_n_n.rhsIdx j q 0).val = (q ⟨0, by decide⟩).val :=
  dot_S1024x300_S300x500_S1024x500_1_0_0_1_n_n.rhsIdx_val_of_single rfl j q
theorem dB_r1 (j : S1024x500.Idx) (q : dot_S1024x300_S300x500_S1024x500_1_0_0_1_n_n.contr.Idx) : (dot_S1024x300_S300x500_S1024x500_1_0_0_1_n_n.rhsIdx j q 1).val = (j 1).val := by
  unfold DotDims.rhsIdx
  rw [dif_neg (show ¬(1 : Fin S300x500.rank) ∈ dot_S1024x300_S300x500_S1024x500_1_0_0_1_n_n.rhsBatch by decide), dif_pos (show (1 : Fin S300x500.rank) ∈ dot_S1024x300_S300x500_S1024x500_1_0_0_1_n_n.rhsNonContracting by decide)]
  rfl
/-- The product with these dimension numbers into a zero accumulator, read at an index: the sum over the contracted
    axis. -/
theorem dB_mm {φ₁ φ₂ : FTy} (l : FVec Ideal S1024x300 φ₁) (r : FVec Ideal S300x500 φ₂) (j : S1024x500.Idx) :
    FloatOps.matmul dot_S1024x300_S300x500_S1024x500_1_0_0_1_n_n none l r (constant S1024x500 .f32 0x00000000#32) j = ∑ k, l (ix2 (j 0) k) * r (ix2 k (j 1)) :=
  Cert.Lib.PlainDot.matmul_zero_apply dot_S1024x300_S300x500_S1024x500_1_0_0_1_n_n rfl rfl dB_l0 dB_l1 dB_r0 dB_r1 none l r j

theorem dC_l0 (j : S1024x500.Idx) (q : dot_S1024x768_S768x500_S1024x500_1_0_0_1_n_n.contr.Idx) : (dot_S1024x768_S768x500_S1024x500_1_0_0_1_n_n.lhsIdx j q 0).val = (j 0).val := by
  unfold DotDims.lhsIdx
  rw [dif_neg (show ¬(0 : Fin S1024x768.rank) ∈ dot_S1024x768_S768x500_S1024x500_1_0_0_1_n_n.lhsBatch by decide), dif_pos (show (0 : Fin S1024x768.rank) ∈ dot_S1024x768_S768x500_S1024x500_1_0_0_1_n_n.lhsNonContracting by decide)]
  rfl
theorem dC_l1 (j : S1024x500.Idx) (q : dot_S1024x768_S768x500_S1024x500_1_0_0_1_n_n.contr.Idx) : (dot_S1024x768_S768x500_S1024x500_1_0_0_1_n_n.lhsIdx j q 1).val = (q ⟨0, by decide⟩).val :=
  dot_S1024x768_S768x500_S1024x500_1_0_0_1_n_n.lhsIdx_val_of_single rfl j q
theorem dC_r0 (j : S1024x500.Idx) (q : dot_S1024x768_S768x500_S1024x500_1_0_0_1_n_n.contr.Idx) : (dot_S1024x768_S768x500_S1024x500_1_0_0_1_n_n.rhsIdx j q 0).val = (q ⟨0, by decide⟩).val :=
  dot_S1024x768_S768x500_S1024x500_1_0_0_1_n_n.rhsIdx_val_of_single rfl j q
theorem dC_r1 (j : S1024x500.Idx) (q : dot_S1024x768_S768x500_S1024x500_1_0_0_1_n_n.contr.Idx) : (dot_S1024x768_S768x500_S1024x500_1_0_0_1_n_n.rhsIdx j q 1).val = (j 1).val := by
  unfold DotDims.rhsIdx
  rw [dif_neg (show ¬(1 : Fin S768x500.rank) ∈ dot_S1024x768_S768x500_S1024x500_1_0_0_1_n_n.rhsBatch by decide), dif_pos (show (1 : Fin S768x500.rank) ∈ dot_S1024x768_S768x500_S1024x500_1_0_0_1_n_n.rhsNonContracting by decide)]
  rfl
/-- The product with these dimension numbers into a zero accumulator, read at an index: the sum over the contracted
    axis. -/
theorem dC_mm {φ₁ φ₂ : FTy} (l : FVec Ideal S1024x768 φ₁) (r : FVec Ideal S768x500 φ₂) (j : S1024x500.Idx) :
    FloatOps.matmul dot_S1024x768_S768x500_S1024x500_1_0_0_1_n_n none l r (constant S1024x500 .f32 0x00000000#32) j = ∑ k, l (ix2 (j 0) k) * r (ix2 k (j 1)) :=
  Cert.Lib.PlainDot.matmul_zero_apply dot_S1024x768_S768x500_S1024x500_1_0_0_1_n_n rfl rfl dC_l0 dC_l1 dC_r0 dC_r1 none l r j

theorem dD_l0 (j : S1024x500.Idx) (q : dot_S1024x500_S500x500_S1024x500_1_0_0_1_n_n.contr.Idx) : (dot_S1024x500_S500x500_S1024x500_1_0_0_1_n_n.lhsIdx j q 0).val = (j 0).val := by
  unfold DotDims.lhsIdx
  rw [dif_neg (show ¬(0 : Fin S1024x500.rank) ∈ dot_S1024x500_S500x500_S1024x500_1_0_0_1_n_n.lhsBatch by decide), dif_pos (show (0 : Fin S1024x500.rank) ∈ dot_S1024x500_S500x500_S1024x500_1_0_0_1_n_n.lhsNonContracting by decide)]
  rfl
theorem dD_l1 (j : S1024x500.Idx) (q : dot_S1024x500_S500x500_S1024x500_1_0_0_1_n_n.contr.Idx) : (dot_S1024x500_S500x500_S1024x500_1_0_0_1_n_n.lhsIdx j q 1).val = (q ⟨0, by decide⟩).val :=
  dot_S1024x500_S500x500_S1024x500_1_0_0_1_n_n.lhsIdx_val_of_single rfl j q
theorem dD_r0 (j : S1024x500.Idx) (q : dot_S1024x500_S500x500_S1024x500_1_0_0_1_n_n.contr.Idx) : (dot_S1024x500_S500x500_S1024x500_1_0_0_1_n_n.rhsIdx j q 0).val = (q ⟨0, by decide⟩).val :=
  dot_S1024x500_S500x500_S1024x500_1_0_0_1_n_n.rhsIdx_val_of_single rfl j q
theorem dD_r1 (j : S1024x500.Idx) (q : dot_S1024x500_S500x500_S1024x500_1_0_0_1_n_n.contr.Idx) : (dot_S1024x500_S500x500_S1024x500_1_0_0_1_n_n.rhsIdx j q 1).val = (j 1).val := by
  unfold DotDims.rhsIdx
  rw [dif_neg (show ¬(1 : Fin S500x500.rank) ∈ dot_S1024x500_S500x500_S1024x500_1_0_0_1_n_n.rhsBatch by decide), dif_pos (show (1 : Fin S500x500.rank) ∈ dot_S1024x500_S500x500_S1024x500_1_0_0_1_n_n.rhsNonContracting by decide)]
  rfl
/-- The product with these dimension numbers into a zero accumulator, read at an index: the sum over the contracted
    axis. -/
theorem dD_mm {φ₁ φ₂ : FTy} (l : FVec Ideal S1024x500 φ₁) (r : FVec Ideal S500x500 φ₂) (j : S1024x500.Idx) :
    FloatOps.matmul dot_S1024x500_S500x500_S1024x500_1_0_0_1_n_n none l r (constant S1024x500 .f32 0x00000000#32) j = ∑ k, l (ix2 (j 0) k) * r (ix2 k (j 1)) :=
  Cert.Lib.PlainDot.matmul_zero_apply dot_S1024x500_S500x500_S1024x500_1_0_0_1_n_n rfl rfl dD_l0 dD_l1 dD_r0 dD_r1 none l r j

theorem dE_l0 (j : S1024x2.Idx) (q : dot_S1024x500_S500x2_S1024x2_1_0_0_1_n_n.contr.Idx) : (dot_S1024x500_S500x2_S1024x2_1_0_0_1_n_n.lhsIdx j q 0).val = (j 0).val := by
  unfold DotDims.lhsIdx
  rw [dif_neg (show ¬(0 : Fin S1024x500.rank) ∈ dot_S1024x500_S500x2_S1024x2_1_0_0_1_n_n.lhsBatch by decide), dif_pos (show (0 : Fin S1024x500.rank) ∈ dot_S1024x500_S500x2_S1024x2_1_0_0_1_n_n.lhsNonContracting by decide)]
  rfl
theorem dE_l1 (j : S1024x2.Idx) (q : dot_S1024x500_S500x2_S1024x2_1_0_0_1_n_n.contr.Idx) : (dot_S1024x500_S500x2_S1024x2_1_0_0_1_n_n.lhsIdx j q 1).val = (q ⟨0, by decide⟩).val :=
  dot_S1024x500_S500x2_S1024x2_1_0_0_1_n_n.lhsIdx_val_of_single rfl j q
theorem dE_r0 (j : S1024x2.Idx) (q : dot_S1024x500_S500x2_S1024x2_1_0_0_1_n_n.contr.Idx) : (dot_S1024x500_S500x2_S1024x2_1_0_0_1_n_n.rhsIdx j q 0).val = (q ⟨0, by decide⟩).val :=
  dot_S1024x500_S500x2_S1024x2_1_0_0_1_n_n.rhsIdx_val_of_single rfl j q
theorem dE_r1 (j : S1024x2.Idx) (q : dot_S1024x500_S500x2_S1024x2_1_0_0_1_n_n.contr.Idx) : (dot_S1024x500_S500x2_S1024x2_1_0_0_1_n_n.rhsIdx j q 1).val = (j 1).val := by
  unfold DotDims.rhsIdx
  rw [dif_neg (show ¬(1 : Fin S500x2.rank) ∈ dot_S1024x500_S500x2_S1024x2_1_0_0_1_n_n.rhsBatch by decide), dif_pos (show (1 : Fin S500x2.rank) ∈ dot_S1024x500_S500x2_S1024x2_1_0_0_1_n_n.rhsNonContracting by decide)]
  rfl
/-- The product with these dimension numbers into a zero accumulator, read at an index: the sum over the contracted
    axis. -/
theorem dE_mm {φ₁ φ₂ : FTy} (l : FVec Ideal S1024x500 φ₁) (r : FVec Ideal S500x2 φ₂) (j : S1024x2.Idx) :
    FloatOps.matmul dot_S1024x500_S500x2_S1024x2_1_0_0_1_n_n none l r (constant S1024x2 .f32 0x00000000#32) j = ∑ k, l (ix2 (j 0) k) * r (ix2 k (j 1)) :=
  Cert.Lib.PlainDot.matmul_zero_apply dot_S1024x500_S500x2_S1024x2_1_0_0_1_n_n rfl rfl dE_l0 dE_l1 dE_r0 dE_r1 none l r j

/-! ## The bodies -/

/-- The first body stores the product of its two blocks. -/
theorem pay0 (x0 : Vec Ideal S3000x300 .f32) (x1 : Vec Ideal S300x300 .f32) (j : S3000x300.Idx) :
    k0_pay1 (F := Ideal) x0 x1 j = ∑ k : Fin 300, x0 (ix2 (j 0) k) * x1 (ix2 k (j 1)) := by
  unfold k0_pay1
  exact dA_mm _ _ j

/-- The second body stores the product of the logistic of its first block with its second. -/
theorem pay1 (x0 : Vec Ideal S3000x300 .f32) (x1 : Vec Ideal S300x300 .f32) (j : S3000x300.Idx) :
    k1_pay1 (F := Ideal) x0 x1 j = ∑ k : Fin 300, Ideal.logistic (x0 (ix2 (j 0) k)) * x1 (ix2 k (j 1)) := by
  unfold k1_pay1
  simp only [shapeCast_self]
  exact dA_mm _ _ j

/-- The third body stores the logistic of its block, entry by entry. -/
theorem pay2 (x0 : Vec Ideal S3000x300 .f32) (j : S3000x300.Idx) :
    k2_pay1 (F := Ideal) x0 j = Ideal.logistic (x0 j) := by
  unfold k2_pay1
  simp only [shapeCast_self]
  rfl

/-- The head's first layer before its activation, at row `r` and column `k`. -/
def h1 (v0 : Vec Ideal S1024x300 .f32) (v3 : Vec Ideal S1024x768 .f32) (v5 : Vec Ideal S300x500 .f32)
    (v8 : Vec Ideal S768x500 .f32) (v14 : Vec Ideal S1x500 .f32) (r : Fin 1024) (k : Fin 500) : EReal :=
  ((∑ j : Fin 300, v0 (ix2 r j) * v5 (ix2 j k)) + (∑ j : Fin 768, v3 (ix2 r j) * v8 (ix2 j k))) + v14 (ix2 (0 : Fin 1) k)

/-- The head's second layer before its activation. -/
def h2 (v0 : Vec Ideal S1024x300 .f32) (v3 : Vec Ideal S1024x768 .f32) (v5 : Vec Ideal S300x500 .f32)
    (v8 : Vec Ideal S768x500 .f32) (v14 : Vec Ideal S1x500 .f32) (v20 : Vec Ideal S500x500 .f32)
    (v23 : Vec Ideal S1x500 .f32) (r : Fin 1024) (k' : Fin 500) : EReal :=
  (∑ k : Fin 500, Ideal.logistic (h1 v0 v3 v5 v8 v14 r k) * v20 (ix2 k k')) + v23 (ix2 (0 : Fin 1) k')

/-- The head's body stores the third layer of its blocks. -/
theorem pay3 (v0 : Vec Ideal S1024x300 .f32) (v3 : Vec Ideal S1024x768 .f32) (v5 : Vec Ideal S300x500 .f32)
    (v8 : Vec Ideal S768x500 .f32) (v14 : Vec Ideal S1x500 .f32) (v20 : Vec Ideal S500x500 .f32)
    (v23 : Vec Ideal S1x500 .f32) (v29 : Vec Ideal S500x2 .f32) (v32 : Vec Ideal S1x2 .f32) (r : Fin 1024) (c : Fin 2) :
    k3_pay1 (F := Ideal) v0 v3 v5 v8 v14 v20 v23 v29 v32 (ix2 r c)
      = (∑ k' : Fin 500, Ideal.logistic (h2 v0 v3 v5 v8 v14 v20 v23 r k') * v29 (ix2 k' c)) + v32 (ix2 (0 : Fin 1) c) := by
  unfold k3_pay1
  simp only [shapeCast_self]
  refine congrArg₂ (fun a b : EReal => a + b) ((dE_mm _ _ (ix2 r c)).trans ?_) (broadcastTo_1b_ab_apply v32 _ r c)
  refine Finset.sum_congr rfl fun k' _ => congrArg (fun a : EReal => a * v29 (ix2 k' c)) ?_
  refine congrArg Ideal.logistic ?_
  refine congrArg₂ (fun a b : EReal => a + b) ((dD_mm _ _ (ix2 r k')).trans ?_) (broadcastTo_1b_ab_apply v23 _ r k')
  refine Finset.sum_congr rfl fun k _ => congrArg (fun a : EReal => a * v20 (ix2 k k')) ?_
  refine congrArg Ideal.logistic ?_
  refine congrArg₂ (fun a b : EReal => a + b) ?_ (broadcastTo_1b_ab_apply v14 _ r k)
  exact congrArg₂ (fun a b : EReal => a + b) (dB_mm _ _ (ix2 r k)) (dC_mm _ _ (ix2 r k))

end Cert.KernelIdeal.Pay

end
-- ==== Proof.Spec.lean ====
/-
  The specification both programs are compared with, as pure functions on extended-real arrays.

  * `mm X W` — the matrix product: entry `(r, c)` is the sum over `k` of `X (r, k) * W (k, c)`.
  * `sig X` — the logistic function `1 / (1 + e^(-x))` applied entry by entry.
  * `mlp H inp Wa ba Wb bb Wc bc` — the three-layer head: a row of `H` (300 entries) followed by the same row of
    `inp` (768 entries) is multiplied by `Wa` (1068 rows), the bias added, the logistic applied; then `Wb`, bias,
    logistic; then `Wc` and bias.  The 1068-term sum of the first layer is written as its first 300 terms plus its
    last 768, which is how a program that keeps `H` and `inp` apart computes it; `sum_split` is the law that makes
    the two writings equal, and it needs only that addition is commutative and associative.
-/
import Idealize.ShloMosaic.Lib.ValueIdx
import Idealize.ShloMosaic.PureOps.Ideal.Laws

noncomputable section

open scoped BigOperators

namespace Cert.Spec

open Idealize.ShloMosaic Idealize.ShloMosaic.ValueIdx

/-- Entry `(r, c)` of the product of an `M × K` array with a `K × N` array. -/
def mm {M K N : Nat} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

/-- The logistic function entry by entry. -/
def sig {S : Shape} (X : S.Idx → EReal) : S.Idx → EReal := fun i => Ideal.logistic (X i)

/-- Row `j` of the first 300 rows of a 1068-row array. -/
abbrev lo (j : Fin 300) : Fin 1068 := ⟨j.val, by omega⟩
/-- Row `j` of the last 768 rows of a 1068-row array. -/
abbrev hi (j : Fin 768) : Fin 1068 := ⟨300 + j.val, by omega⟩

/-- The first layer before its activation: the row `(H r, inp r)` against column `k` of `Wa`, plus the bias. -/
def pre1 (H : (⟨2, ![4096, 300]⟩ : Shape).Idx → EReal) (inp : (⟨2, ![4096, 768]⟩ : Shape).Idx → EReal)
    (Wa : (⟨2, ![1068, 500]⟩ : Shape).Idx → EReal) (ba : (⟨1, ![500]⟩ : Shape).Idx → EReal)
    (r : Fin 4096) (k : Fin 500) : EReal :=
  ((∑ j : Fin 300, H (ix2 r j) * Wa (ix2 (lo j) k)) + (∑ j : Fin 768, inp (ix2 r j) * Wa (ix2 (hi j) k))) + ba (ix1 k)

/-- The second layer before its activation. -/
def pre2 (H : (⟨2, ![4096, 300]⟩ : Shape).Idx → EReal) (inp : (⟨2, ![4096, 768]⟩ : Shape).Idx → EReal)
    (Wa : (⟨2, ![1068, 500]⟩ : Shape).Idx → EReal) (ba : (⟨1, ![500]⟩ : Shape).Idx → EReal)
    (Wb : (⟨2, ![500, 500]⟩ : Shape).Idx → EReal) (bb : (⟨1, ![500]⟩ : Shape).Idx → EReal)
    (r : Fin 4096) (k' : Fin 500) : EReal :=
  (∑ k : Fin 500, Ideal.logistic (pre1 H inp Wa ba r k) * Wb (ix2 k k')) + bb (ix1 k')

/-- The three-layer head. -/
def mlp (H : (⟨2, ![4096, 300]⟩ : Shape).Idx → EReal) (inp : (⟨2, ![4096, 768]⟩ : Shape).Idx → EReal)
    (Wa : (⟨2, ![1068, 500]⟩ : Shape).Idx → EReal) (ba : (⟨1, ![500]⟩ : Shape).Idx → EReal)
    (Wb : (⟨2, ![500, 500]⟩ : Shape).Idx → EReal) (bb : (⟨1, ![500]⟩ : Shape).Idx → EReal)
    (Wc : (⟨2, ![500, 2]⟩ : Shape).Idx → EReal) (bc : (⟨1, ![2]⟩ : Shape).Idx → EReal) :
    (⟨2, ![4096, 2]⟩ : Shape).Idx → EReal :=
  fun i => (∑ k' : Fin 500, Ideal.logistic (pre2 H inp Wa ba Wb bb (i 0) k') * Wc (ix2 k' (i 1))) + bc (ix1 (i 1))

/-- A sum over 1068 consecutive indices is the sum over the first 300 plus the sum over the last 768: in any
    commutative monoid, so on the extended reals with their infinities too. -/
theorem sum_split {A : Type} [AddCommMonoid A] (f : Fin 1068 → A) :
    ∑ j : Fin 1068, f j = (∑ j : Fin 300, f (lo j)) + (∑ j : Fin 768, f (hi j)) := by
  have h := Fin.sum_univ_add (M := A) (a := 300) (b := 768) f
  refine h.trans ?_
  refine congrArg₂ (· + ·) (Finset.sum_congr rfl fun j _ => congrArg f (Fin.ext ?_))
    (Finset.sum_congr rfl fun j _ => congrArg f (Fin.ext ?_))
  · rfl
  · rfl

/-- The logistic function is the quotient `1 / (1 + e^(-x))` in the extended reals' own operations, by definition:
    at `-∞` the exponential is `+∞` and the quotient `0`, at `+∞` the exponential is `0` and the quotient `1`. -/
theorem logistic_eq (x : EReal) : Ideal.logistic x = Ideal.div 1 (1 + Ideal.exp (-x)) := rfl

end Cert.Spec

end
-- ==== Proof.Reg0.lean ====
/-
  The first region: the node features times the first weight matrix.

  The grid has 39 points; point `t` holds rows `3000 t … 3000 t + 2999` of the 117000 × 300 feature array and the whole
  300 × 300 weight matrix, and writes the same rows of the product.  A row of a product depends only on that row of the
  left factor, so each block written is a block of the whole product, and the 39 blocks tile the result.
-/
import proofs.«121087_j25692494365029_1_alg».proof.Proof.Gen.KernelIdeal.Frame
import proofs.«121087_j25692494365029_1_alg».proof.Proof.KPay
import proofs.«121087_j25692494365029_1_alg».proof.Proof.Spec
import Idealize.ShloMosaic.Lib.Pipeline.Value

set_option maxRecDepth 16384

noncomputable section

open scoped BigOperators

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` reads rows `3000 t … 3000 t + 2999` of its first operand and writes the
    same rows of its result; a second operand, when there is one, is read whole at every point. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 38 :=
  (by decide +kernel : ∀ t : Fin grid0.N, _)

/-- Every one of the 39 row blocks is some point's. -/
theorem idx_onto : ∀ q : Fin 39, ∃ t : Fin cfg0.N, win0_2.index t = ![q.val, 0] :=
  (by decide +kernel : ∀ q : Fin 39, ∃ t : Fin grid0.N, win0_2.index t = ![q.val, 0])

/-- What point `t` writes back is block `t` of the whole-array function of the arrays the region found. -/
theorem flushed_eq (c : Dev nD) (t : Fin cfg0.N) :
    (dat0 V c).flushed 2 t = ((cfg0.win 2).blk t).view.read (Elt Ideal) (Cert.Spec.mm (M := 117000) (K := 300) (N := 300) (V c main_arg4) (V c main_arg5)) := by
  show (cfg0.win 2).cut (grid0.coords t) ((dat0 V c).after 2 t) = _
  rw [after0_2]
  unfold out0_2
  rw [View.canon_unit_zero hz]
  simp only [View.ld_unit_zero (S := S3000x300) hz, View.ld_unit_zero (S := S300x300) hz]
  obtain ⟨e0, e1, e2, e3, e4, e5⟩ := idx_facts t
  funext j
  refine (Pay.pay0 (iblk0 V c 0 t) (iblk0 V c 1 t) j).trans ?_
  show _ = ∑ k : Fin 300, (fun a b : EReal => a * b) (V c main_arg4 (ix2 ((((cfg0.win 2).blk t).view.emb j) 0) k)) (V c main_arg5 (ix2 k ((((cfg0.win 2).blk t).view.emb j) 1)))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 3000 + 1 * (j 0).val = win0_2.index t (0 : Fin 2) * 3000 + 1 * (j 0).val; omega
    | ⟨1, _⟩ => show win0_0.index t (1 : Fin 2) * 300 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 300 + 1 * k.val = k.val; omega
    | ⟨1, _⟩ => show win0_1.index t (1 : Fin 2) * 300 + 1 * (j 1).val = win0_2.index t (1 : Fin 2) * 300 + 1 * (j 1).val; omega
  show (fun a b : EReal => a * b) (V c main_arg4 (((cfg0.win 0).blk t).view.emb (ix2 (j 0) k))) (V c main_arg5 (((cfg0.win 1).blk t).view.emb (ix2 k (j 1)))) = _
  rw [h0, h1]
  try rfl

/-- An index of the array is in point `t`'s block iff each coordinate is in the block's range on its axis. -/
theorem mem_blk (t : Fin cfg0.N) (i : S117000x300.Idx) :
    i ∈ ((cfg0.win 2).blk t).view.set ↔ ∀ a : Fin 2, win0_2.index t a * S3000x300.size a ≤ (i a).val ∧ (i a).val < win0_2.index t a * S3000x300.size a + S3000x300.size a := by
  show i ∈ ((View.whole main_v24).slice (win0_2.rect t)).set ↔ _
  rw [View.set_slice_whole, Rect.mem_set_unit]
  exact Iff.rfl

/-- The 39 blocks cover the array: row `r` is in block `r / 3000`. -/
theorem cover (i : S117000x300.Idx) :
    ∃ t : Fin cfg0.N, (cfg0.win 2).flush t = true ∧ i ∈ ((cfg0.win 2).blk t).view.set := by
  have hi0 : (i 0).val < 117000 := (i 0).isLt
  have hi1 : (i 1).val < 300 := (i 1).isLt
  obtain ⟨t, ht⟩ := idx_onto ⟨(i 0).val / 3000, by omega⟩
  have q0 : win0_2.index t (0 : Fin 2) = (i 0).val / 3000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 3000 ≤ (i 0).val ∧ (i 0).val < win0_2.index t (0 : Fin 2) * 3000 + 3000; omega
  | ⟨1, _⟩ => show win0_2.index t (1 : Fin 2) * 300 ≤ (i 1).val ∧ (i 1).val < win0_2.index t (1 : Fin 2) * 300 + 300; omega

/-- The result array after the region. -/
theorem final (c : Dev nD) : (dat0 V c).arrAt 2 cfg0.N = Cert.Spec.mm (M := 117000) (K := 300) (N := 300) (V c main_arg4) (V c main_arg5) :=
  (dat0 V c).arrAt_eq_of_cover 2 _ (fun t _ => flushed_eq V c t) (fun i => cover i)

end Cert.KernelIdeal.Reg0

end
-- ==== Proof.Reg1.lean ====
/-
  The second region: the logistic of the first propagation's result, times the second weight matrix.

  Same tiling as the first region: point `t` holds rows `3000 t … 3000 t + 2999` of the propagated array and the whole
  weight matrix; the logistic acts entry by entry, so each block written is a block of `logistic(Z) · W`.
-/
import proofs.«121087_j25692494365029_1_alg».proof.Proof.Gen.KernelIdeal.Frame
import proofs.«121087_j25692494365029_1_alg».proof.Proof.KPay
import proofs.«121087_j25692494365029_1_alg».proof.Proof.Spec
import Idealize.ShloMosaic.Lib.Pipeline.Value

set_option maxRecDepth 16384

noncomputable section

open scoped BigOperators

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` reads rows `3000 t … 3000 t + 2999` of its first operand and writes the
    same rows of its result; a second operand, when there is one, is read whole at every point. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 38 :=
  (by decide +kernel : ∀ t : Fin grid1.N, _)

/-- Every one of the 39 row blocks is some point's. -/
theorem idx_onto : ∀ q : Fin 39, ∃ t : Fin cfg1.N, win1_2.index t = ![q.val, 0] :=
  (by decide +kernel : ∀ q : Fin 39, ∃ t : Fin grid1.N, win1_2.index t = ![q.val, 0])

/-- What point `t` writes back is block `t` of the whole-array function of the arrays the region found. -/
theorem flushed_eq (c : Dev nD) (t : Fin cfg1.N) :
    (dat1 V c).flushed 2 t = ((cfg1.win 2).blk t).view.read (Elt Ideal) (Cert.Spec.mm (M := 117000) (K := 300) (N := 300) (Cert.Spec.sig (V c main_v37)) (V c main_arg6)) := by
  show (cfg1.win 2).cut (grid1.coords t) ((dat1 V c).after 2 t) = _
  rw [after1_2]
  unfold out1_2
  rw [View.canon_unit_zero hz]
  simp only [View.ld_unit_zero (S := S3000x300) hz, View.ld_unit_zero (S := S300x300) hz]
  obtain ⟨e0, e1, e2, e3, e4, e5⟩ := idx_facts t
  funext j
  refine (Pay.pay1 (iblk1 V c 0 t) (iblk1 V c 1 t) j).trans ?_
  show _ = ∑ k : Fin 300, Ideal.logistic (V c main_v37 (ix2 ((((cfg1.win 2).blk t).view.emb j) 0) k)) * (V c main_arg6 (ix2 k ((((cfg1.win 2).blk t).view.emb j) 1)) : EReal)
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 3000 + 1 * (j 0).val = win1_2.index t (0 : Fin 2) * 3000 + 1 * (j 0).val; omega
    | ⟨1, _⟩ => show win1_0.index t (1 : Fin 2) * 300 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 300 + 1 * k.val = k.val; omega
    | ⟨1, _⟩ => show win1_1.index t (1 : Fin 2) * 300 + 1 * (j 1).val = win1_2.index t (1 : Fin 2) * 300 + 1 * (j 1).val; omega
  show Ideal.logistic (V c main_v37 (((cfg1.win 0).blk t).view.emb (ix2 (j 0) k))) * (V c main_arg6 (((cfg1.win 1).blk t).view.emb (ix2 k (j 1))) : EReal) = _
  rw [h0, h1]
  try rfl

/-- An index of the array is in point `t`'s block iff each coordinate is in the block's range on its axis. -/
theorem mem_blk (t : Fin cfg1.N) (i : S117000x300.Idx) :
    i ∈ ((cfg1.win 2).blk t).view.set ↔ ∀ a : Fin 2, win1_2.index t a * S3000x300.size a ≤ (i a).val ∧ (i a).val < win1_2.index t a * S3000x300.size a + S3000x300.size a := by
  show i ∈ ((View.whole main_v38).slice (win1_2.rect t)).set ↔ _
  rw [View.set_slice_whole, Rect.mem_set_unit]
  exact Iff.rfl

/-- The 39 blocks cover the array: row `r` is in block `r / 3000`. -/
theorem cover (i : S117000x300.Idx) :
    ∃ t : Fin cfg1.N, (cfg1.win 2).flush t = true ∧ i ∈ ((cfg1.win 2).blk t).view.set := by
  have hi0 : (i 0).val < 117000 := (i 0).isLt
  have hi1 : (i 1).val < 300 := (i 1).isLt
  obtain ⟨t, ht⟩ := idx_onto ⟨(i 0).val / 3000, by omega⟩
  have q0 : win1_2.index t (0 : Fin 2) = (i 0).val / 3000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 3000 ≤ (i 0).val ∧ (i 0).val < win1_2.index t (0 : Fin 2) * 3000 + 3000; omega
  | ⟨1, _⟩ => show win1_2.index t (1 : Fin 2) * 300 ≤ (i 1).val ∧ (i 1).val < win1_2.index t (1 : Fin 2) * 300 + 300; omega

/-- The result array after the region. -/
theorem final (c : Dev nD) : (dat1 V c).arrAt 2 cfg1.N = Cert.Spec.mm (M := 117000) (K := 300) (N := 300) (Cert.Spec.sig (V c main_v37)) (V c main_arg6) :=
  (dat1 V c).arrAt_eq_of_cover 2 _ (fun t _ => flushed_eq V c t) (fun i => cover i)

end Cert.KernelIdeal.Reg1

end
-- ==== Proof.Reg2.lean ====
/-
  The third region: the logistic of the second propagation's result, entry by entry, block of rows by block of rows.
-/
import proofs.«121087_j25692494365029_1_alg».proof.Proof.Gen.KernelIdeal.Frame
import proofs.«121087_j25692494365029_1_alg».proof.Proof.KPay
import proofs.«121087_j25692494365029_1_alg».proof.Proof.Spec
import Idealize.ShloMosaic.Lib.Pipeline.Value

set_option maxRecDepth 16384

noncomputable section

open scoped BigOperators

namespace Cert.KernelIdeal.Reg2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` reads rows `3000 t … 3000 t + 2999` of its first operand and writes the
    same rows of its result; a second operand, when there is one, is read whole at every point. -/
theorem idx_facts : ∀ t : Fin cfg2.N, win2_0.index t (0 : Fin 2) = win2_1.index t (0 : Fin 2)
    ∧ win2_0.index t (1 : Fin 2) = 0
    ∧ win2_1.index t (1 : Fin 2) = 0 ∧ win2_1.index t (0 : Fin 2) ≤ 38 :=
  (by decide +kernel : ∀ t : Fin grid2.N, _)

/-- Every one of the 39 row blocks is some point's. -/
theorem idx_onto : ∀ q : Fin 39, ∃ t : Fin cfg2.N, win2_1.index t = ![q.val, 0] :=
  (by decide +kernel : ∀ q : Fin 39, ∃ t : Fin grid2.N, win2_1.index t = ![q.val, 0])

/-- What point `t` writes back is block `t` of the whole-array function of the arrays the region found. -/
theorem flushed_eq (c : Dev nD) (t : Fin cfg2.N) :
    (dat2 V c).flushed 1 t = ((cfg2.win 1).blk t).view.read (Elt Ideal) (Cert.Spec.sig (V c main_v51)) := by
  show (cfg2.win 1).cut (grid2.coords t) ((dat2 V c).after 1 t) = _
  rw [after2_1]
  unfold out2_1
  rw [View.canon_unit_zero hz]
  simp only [View.ld_unit_zero (S := S3000x300) hz]
  obtain ⟨e0, e1, e4, e5⟩ := idx_facts t
  funext j
  refine (Pay.pay2 (iblk2 V c 0 t) j).trans ?_
  have h0 : ((cfg2.win 0).blk t).view.emb j = ((cfg2.win 1).blk t).view.emb j := by
    funext a; apply Fin.ext
    match a with
    | ⟨0, _⟩ => show win2_0.index t (0 : Fin 2) * 3000 + 1 * (j 0).val = win2_1.index t (0 : Fin 2) * 3000 + 1 * (j 0).val; omega
    | ⟨1, _⟩ => show win2_0.index t (1 : Fin 2) * 300 + 1 * (j 1).val = win2_1.index t (1 : Fin 2) * 300 + 1 * (j 1).val; omega
  show Ideal.logistic (V c main_v51 (((cfg2.win 0).blk t).view.emb j)) = Ideal.logistic (V c main_v51 (((cfg2.win 1).blk t).view.emb j))
  rw [h0]

/-- An index of the array is in point `t`'s block iff each coordinate is in the block's range on its axis. -/
theorem mem_blk (t : Fin cfg2.N) (i : S117000x300.Idx) :
    i ∈ ((cfg2.win 1).blk t).view.set ↔ ∀ a : Fin 2, win2_1.index t a * S3000x300.size a ≤ (i a).val ∧ (i a).val < win2_1.index t a * S3000x300.size a + S3000x300.size a := by
  show i ∈ ((View.whole main_v52).slice (win2_1.rect t)).set ↔ _
  rw [View.set_slice_whole, Rect.mem_set_unit]
  exact Iff.rfl

/-- The 39 blocks cover the array: row `r` is in block `r / 3000`. -/
theorem cover (i : S117000x300.Idx) :
    ∃ t : Fin cfg2.N, (cfg2.win 1).flush t = true ∧ i ∈ ((cfg2.win 1).blk t).view.set := by
  have hi0 : (i 0).val < 117000 := (i 0).isLt
  have hi1 : (i 1).val < 300 := (i 1).isLt
  obtain ⟨t, ht⟩ := idx_onto ⟨(i 0).val / 3000, by omega⟩
  have q0 : win2_1.index t (0 : Fin 2) = (i 0).val / 3000 := congrFun ht 0
  have q1 : win2_1.index t (1 : Fin 2) = 0 := congrFun ht 1
  refine ⟨t, flush2_1 t, ?_⟩
  rw [mem_blk]
  intro a
  match a with
  | ⟨0, _⟩ => show win2_1.index t (0 : Fin 2) * 3000 ≤ (i 0).val ∧ (i 0).val < win2_1.index t (0 : Fin 2) * 3000 + 3000; omega
  | ⟨1, _⟩ => show win2_1.index t (1 : Fin 2) * 300 ≤ (i 1).val ∧ (i 1).val < win2_1.index t (1 : Fin 2) * 300 + 300; omega

/-- The result array after the region. -/
theorem final (c : Dev nD) : (dat2 V c).arrAt 1 cfg2.N = Cert.Spec.sig (V c main_v51) :=
  (dat2 V c).arrAt_eq_of_cover 1 _ (fun t _ => flushed_eq V c t) (fun i => cover i)

end Cert.KernelIdeal.Reg2

end
-- ==== Proof.Head.lean ====
/-
  The head as one function of whole arrays.

  Three dense layers with logistic activations over a batch of 4096 rows.  A program that keeps the gathered node rows
  (300 columns) and the input rows (768 columns) apart multiplies them by the first 300 and the last 768 rows of the
  first layer's 1068-row weight matrix and adds the two products; its biases are one-row matrices added to every row.
  `head` is that function; cut at the 300th row and with each bias written as a one-row matrix it is the
  specification's head, whose first layer is the same two sums over the uncut matrix.
-/
import proofs.«121087_j25692494365029_1_alg».proof.Proof.KPay
import proofs.«121087_j25692494365029_1_alg».proof.Proof.Spec
import Idealize.ShloMosaic.Lib.ValueLayout

noncomputable section

open scoped BigOperators

namespace Cert.KernelIdeal.Reg3

open Cert.KernelIdeal Cert.KernelIdeal.Gen Idealize.ShloMosaic Idealize.ShloMosaic.ValueIdx

/-! ## The whole-array function -/

/-- The first layer before its activation, at row `r` of the batch and column `k`. -/
def g1 (H : S4096x300.Idx → EReal) (inp : S4096x768.Idx → EReal) (Wa1 : S300x500.Idx → EReal) (Wa2 : S768x500.Idx → EReal)
    (ba : S1x500.Idx → EReal) (r : Fin 4096) (k : Fin 500) : EReal :=
  ((∑ j : Fin 300, H (ix2 r j) * Wa1 (ix2 j k)) + (∑ j : Fin 768, inp (ix2 r j) * Wa2 (ix2 j k))) + ba (ix2 (0 : Fin 1) k)

/-- The second layer before its activation. -/
def g2 (H : S4096x300.Idx → EReal) (inp : S4096x768.Idx → EReal) (Wa1 : S300x500.Idx → EReal) (Wa2 : S768x500.Idx → EReal)
    (ba : S1x500.Idx → EReal) (Wb : S500x500.Idx → EReal) (bb : S1x500.Idx → EReal) (r : Fin 4096) (k' : Fin 500) : EReal :=
  (∑ k : Fin 500, Ideal.logistic (g1 H inp Wa1 Wa2 ba r k) * Wb (ix2 k k')) + bb (ix2 (0 : Fin 1) k')

/-- The head on whole arrays. -/
def head (H : S4096x300.Idx → EReal) (inp : S4096x768.Idx → EReal) (Wa1 : S300x500.Idx → EReal) (Wa2 : S768x500.Idx → EReal)
    (ba : S1x500.Idx → EReal) (Wb : S500x500.Idx → EReal) (bb : S1x500.Idx → EReal) (Wc : S500x2.Idx → EReal)
    (bc : S1x2.Idx → EReal) : S4096x2.Idx → EReal :=
  fun i => (∑ k' : Fin 500, Ideal.logistic (g2 H inp Wa1 Wa2 ba Wb bb (i 0) k') * Wc (ix2 k' (i 1))) + bc (ix2 (0 : Fin 1) (i 1))

/-- A block's layers are the whole arrays' layers at the block's row, when the block's rows of the two feature arrays
    are those rows. -/
theorem h2_eq (v0 : Vec Ideal S1024x300 .f32) (v3 : Vec Ideal S1024x768 .f32) (H : S4096x300.Idx → EReal) (inp : S4096x768.Idx → EReal)
    (Wa1 : S300x500.Idx → EReal) (Wa2 : S768x500.Idx → EReal) (ba : S1x500.Idx → EReal) (Wb : S500x500.Idx → EReal)
    (bb : S1x500.Idx → EReal) (r : Fin 1024) (R : Fin 4096)
    (hH : ∀ j : Fin 300, v0 (ix2 r j) = H (ix2 R j)) (hI : ∀ j : Fin 768, v3 (ix2 r j) = inp (ix2 R j)) (k' : Fin 500) :
    Pay.h2 v0 v3 Wa1 Wa2 ba Wb bb r k' = g2 H inp Wa1 Wa2 ba Wb bb R k' := by
  unfold Pay.h2 g2
  refine congrArg (fun a : EReal => a + bb (ix2 (0 : Fin 1) k')) ?_
  refine Finset.sum_congr rfl fun k _ => congrArg (fun a : EReal => Ideal.logistic a * Wb (ix2 k k')) ?_
  unfold Pay.h1 g1
  refine congrArg (fun a : EReal => a + ba (ix2 (0 : Fin 1) k)) ?_
  exact congrArg₂ (fun a b : EReal => a + b)
    (Finset.sum_congr rfl fun j _ => congrArg (fun a : EReal => a * Wa1 (ix2 j k)) (hH j))
    (Finset.sum_congr rfl fun j _ => congrArg (fun a : EReal => a * Wa2 (ix2 j k)) (hI j))

/-! ## The head on split weights and one-row biases is the specification's head -/

/-- Rows `0 … 299` and `300 … 1067` of the first layer's weight matrix are the two matrices the head's region is given, and a
    bias written as a one-row matrix holds the bias's entry `k` at `(0, k)`: so the head of those is the specification's. -/
theorem head_eq_mlp (H : S4096x300.Idx → EReal) (inp : S4096x768.Idx → EReal) (Wa : S1068x500.Idx → EReal) (ba : S500.Idx → EReal)
    (Wb : S500x500.Idx → EReal) (bb : S500.Idx → EReal) (Wc : S500x2.Idx → EReal) (bc : S2.Idx → EReal) :
    head H inp (extractStridedSlice S300x500 ![0, 0] Wa slices_S1068x500_S300x500_0_0)
      (extractStridedSlice S768x500 ![300, 0] Wa slices_S1068x500_S768x500_300_0)
      (shapeCast S1x500 ba shapeCasts_S500_S1x500) Wb (shapeCast S1x500 bb shapeCasts_S500_S1x500) Wc (shapeCast S1x2 bc shapeCasts_S2_S1x2)
    = Cert.Spec.mlp H inp Wa ba Wb bb Wc bc := by
  funext i
  unfold head Cert.Spec.mlp
  refine congrArg₂ (fun a b : EReal => a + b) ?_ (shapeCast_a_1a_apply bc shapeCasts_S2_S1x2 (0 : Fin 1) (i 1))
  refine Finset.sum_congr rfl fun k' _ => congrArg (fun a : EReal => Ideal.logistic a * Wc (ix2 k' (i 1))) ?_
  unfold g2 Cert.Spec.pre2
  refine congrArg₂ (fun a b : EReal => a + b) ?_ (shapeCast_a_1a_apply bb shapeCasts_S500_S1x500 (0 : Fin 1) k')
  refine Finset.sum_congr rfl fun k _ => congrArg (fun a : EReal => Ideal.logistic a * Wb (ix2 k k')) ?_
  unfold g1 Cert.Spec.pre1
  refine congrArg₂ (fun a b : EReal => a + b) ?_ (shapeCast_a_1a_apply ba shapeCasts_S500_S1x500 (0 : Fin 1) k)
  refine congrArg₂ (fun a b : EReal => a + b)
    (Finset.sum_congr rfl fun j _ => congrArg (fun a : EReal => H (ix2 (i 0) j) * a) ?_)
    (Finset.sum_congr rfl fun j _ => congrArg (fun a : EReal => inp (ix2 (i 0) j) * a) ?_)
  · exact slice2_axis0_apply 0 Wa slices_S1068x500_S300x500_0_0 j k (Cert.Spec.lo j) (by show j.val = 0 + j.val; omega)
  · exact slice2_axis0_apply 300 Wa slices_S1068x500_S768x500_300_0 j k (Cert.Spec.hi j) rfl

end Cert.KernelIdeal.Reg3

end
-- ==== Proof.Reg3.lean ====
/-
  The head's region: three dense layers with logistic activations over a batch of 4096 rows, 1024 rows per grid point.

  Point `t` holds rows `1024 t … 1024 t + 1023` of the gathered node features (300 columns) and of the input features (768
  columns), and every weight and bias whole; it writes the same rows of the 4096 × 2 result.  Each row of the result depends
  only on that row of the two feature arrays, so each block written is a block of one whole-array function, `head` below,
  and the four blocks tile the result.  The first layer's weights arrive as two matrices (300 and 768 rows) and the biases
  as one-row matrices.
-/
import proofs.«121087_j25692494365029_1_alg».proof.Proof.Gen.KernelIdeal.Frame
import proofs.«121087_j25692494365029_1_alg».proof.Proof.KPay
import proofs.«121087_j25692494365029_1_alg».proof.Proof.Head
import Idealize.ShloMosaic.Lib.Pipeline.Value

set_option maxRecDepth 16384

noncomputable section

open scoped BigOperators

namespace Cert.KernelIdeal.Reg3

open Cert.KernelIdeal Cert.KernelIdeal.Gen Idealize.ShloMosaic Idealize.ShloMosaic.TcCoe Idealize.ShloMosaic.ValueIdx Idealize.SL.Sem
open Idealize.ShloMosaic.Pipeline (Dat)

/-! ## The region -/

/-- The head at an index whose column is `cc`. -/
theorem head_row (H : S4096x300.Idx → EReal) (inp : S4096x768.Idx → EReal) (Wa1 : S300x500.Idx → EReal) (Wa2 : S768x500.Idx → EReal)
    (ba : S1x500.Idx → EReal) (Wb : S500x500.Idx → EReal) (bb : S1x500.Idx → EReal) (Wc : S500x2.Idx → EReal)
    (bc : S1x2.Idx → EReal) (i : S4096x2.Idx) (cc : Fin 2) (hc : i 1 = cc) :
    head H inp Wa1 Wa2 ba Wb bb Wc bc i
      = (∑ k' : Fin 500, Ideal.logistic (g2 H inp Wa1 Wa2 ba Wb bb (i 0) k') * Wc (ix2 k' cc)) + bc (ix2 (0 : Fin 1) cc) := by
  subst hc; rfl

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` reads rows `1024 t …` of the two feature arrays and writes the same rows of
    the result; every weight and bias is read whole. -/
theorem idx_facts : ∀ t : Fin cfg3.N, win3_0.index t (0 : Fin 2) = win3_9.index t (0 : Fin 2)
    ∧ win3_0.index t (1 : Fin 2) = 0
    ∧ win3_1.index t (0 : Fin 2) = win3_9.index t (0 : Fin 2)
    ∧ win3_1.index t (1 : Fin 2) = 0
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ win3_9.index t (1 : Fin 2) = 0 ∧ win3_9.index t (0 : Fin 2) ≤ 3 :=
  (by decide +kernel : ∀ t : Fin grid3.N, _)

/-- Every one of the four row blocks is some point's. -/
theorem idx_onto : ∀ q : Fin 4, ∃ t : Fin cfg3.N, win3_9.index t = ![q.val, 0] :=
  (by decide +kernel : ∀ q : Fin 4, ∃ t : Fin grid3.N, win3_9.index t = ![q.val, 0])

/-- Window 2 is read whole at every point. -/
theorem blk2 (c : Dev nD) (t : Fin cfg3.N) : iblk3 V c 2 t = V c main_v60 := by
  obtain ⟨e0, e1, e2, e3, f2, f3, f4, f5, f6, f7, f8, e4, e5⟩ := idx_facts t
  funext y
  show V c main_v60 (((cfg3.win 2).blk t).view.emb y) = V c main_v60 y
  refine congrArg (V c main_v60) (funext fun a => Fin.ext ?_)
  match a with
  | ⟨0, _⟩ => show win3_2.index t (0 : Fin 2) * 300 + 1 * (y 0).val = (y 0).val; have := f2.1; omega
  | ⟨1, _⟩ => show win3_2.index t (1 : Fin 2) * 500 + 1 * (y 1).val = (y 1).val; have := f2.2; omega

/-- Window 3 is read whole at every point. -/
theorem blk3 (c : Dev nD) (t : Fin cfg3.N) : iblk3 V c 3 t = V c main_v61 := by
  obtain ⟨e0, e1, e2, e3, f2, f3, f4, f5, f6, f7, f8, e4, e5⟩ := idx_facts t
  funext y
  show V c main_v61 (((cfg3.win 3).blk t).view.emb y) = V c main_v61 y
  refine congrArg (V c main_v61) (funext fun a => Fin.ext ?_)
  match a with
  | ⟨0, _⟩ => show win3_3.index t (0 : Fin 2) * 768 + 1 * (y 0).val = (y 0).val; have := f3.1; omega
  | ⟨1, _⟩ => show win3_3.index t (1 : Fin 2) * 500 + 1 * (y 1).val = (y 1).val; have := f3.2; omega

/-- Window 4 is read whole at every point. -/
theorem blk4 (c : Dev nD) (t : Fin cfg3.N) : iblk3 V c 4 t = V c main_v62 := by
  obtain ⟨e0, e1, e2, e3, f2, f3, f4, f5, f6, f7, f8, e4, e5⟩ := idx_facts t
  funext y
  show V c main_v62 (((cfg3.win 4).blk t).view.emb y) = V c main_v62 y
  refine congrArg (V c main_v62) (funext fun a => Fin.ext ?_)
  match a with
  | ⟨0, _⟩ => show win3_4.index t (0 : Fin 2) * 1 + 1 * (y 0).val = (y 0).val; have := f4.1; omega
  | ⟨1, _⟩ => show win3_4.index t (1 : Fin 2) * 500 + 1 * (y 1).val = (y 1).val; have := f4.2; omega

/-- Window 5 is read whole at every point. -/
theorem blk5 (c : Dev nD) (t : Fin cfg3.N) : iblk3 V c 5 t = V c main_arg9 := by
  obtain ⟨e0, e1, e2, e3, f2, f3, f4, f5, f6, f7, f8, e4, e5⟩ := idx_facts t
  funext y
  show V c main_arg9 (((cfg3.win 5).blk t).view.emb y) = V c main_arg9 y
  refine congrArg (V c main_arg9) (funext fun a => Fin.ext ?_)
  match a with
  | ⟨0, _⟩ => show win3_5.index t (0 : Fin 2) * 500 + 1 * (y 0).val = (y 0).val; have := f5.1; omega
  | ⟨1, _⟩ => show win3_5.index t (1 : Fin 2) * 500 + 1 * (y 1).val = (y 1).val; have := f5.2; omega

/-- Window 6 is read whole at every point. -/
theorem blk6 (c : Dev nD) (t : Fin cfg3.N) : iblk3 V c 6 t = V c main_v63 := by
  obtain ⟨e0, e1, e2, e3, f2, f3, f4, f5, f6, f7, f8, e4, e5⟩ := idx_facts t
  funext y
  show V c main_v63 (((cfg3.win 6).blk t).view.emb y) = V c main_v63 y
  refine congrArg (V c main_v63) (funext fun a => Fin.ext ?_)
  match a with
  | ⟨0, _⟩ => show win3_6.index t (0 : Fin 2) * 1 + 1 * (y 0).val = (y 0).val; have := f6.1; omega
  | ⟨1, _⟩ => show win3_6.index t (1 : Fin 2) * 500 + 1 * (y 1).val = (y 1).val; have := f6.2; omega

/-- Window 7 is read whole at every point. -/
theorem blk7 (c : Dev nD) (t : Fin cfg3.N) : iblk3 V c 7 t = V c main_arg11 := by
  obtain ⟨e0, e1, e2, e3, f2, f3, f4, f5, f6, f7, f8, e4, e5⟩ := idx_facts t
  funext y
  show V c main_arg11 (((cfg3.win 7).blk t).view.emb y) = V c main_arg11 y
  refine congrArg (V c main_arg11) (funext fun a => Fin.ext ?_)
  match a with
  | ⟨0, _⟩ => show win3_7.index t (0 : Fin 2) * 500 + 1 * (y 0).val = (y 0).val; have := f7.1; omega
  | ⟨1, _⟩ => show win3_7.index t (1 : Fin 2) * 2 + 1 * (y 1).val = (y 1).val; have := f7.2; omega

/-- Window 8 is read whole at every point. -/
theorem blk8 (c : Dev nD) (t : Fin cfg3.N) : iblk3 V c 8 t = V c main_v64 := by
  obtain ⟨e0, e1, e2, e3, f2, f3, f4, f5, f6, f7, f8, e4, e5⟩ := idx_facts t
  funext y
  show V c main_v64 (((cfg3.win 8).blk t).view.emb y) = V c main_v64 y
  refine congrArg (V c main_v64) (funext fun a => Fin.ext ?_)
  match a with
  | ⟨0, _⟩ => show win3_8.index t (0 : Fin 2) * 1 + 1 * (y 0).val = (y 0).val; have := f8.1; omega
  | ⟨1, _⟩ => show win3_8.index t (1 : Fin 2) * 2 + 1 * (y 1).val = (y 1).val; have := f8.2; omega

set_option maxHeartbeats 4000000 in
/-- What point `t` writes back is block `t` of `head` of the arrays the region found. -/
theorem flushed_eq (c : Dev nD) (t : Fin cfg3.N) :
    (dat3 V c).flushed 9 t = ((cfg3.win 9).blk t).view.read (Elt Ideal)
      (head (V c main_v59) (V c main_arg0) (V c main_v60) (V c main_v61) (V c main_v62) (V c main_arg9) (V c main_v63) (V c main_arg11) (V c main_v64)) := by
  show (cfg3.win 9).cut (grid3.coords t) ((dat3 V c).after 9 t) = _
  rw [after3_9]
  unfold out3_9
  rw [View.canon_unit_zero hz]
  simp only [View.ld_unit_zero (S := S1024x300) hz, View.ld_unit_zero (S := S1024x768) hz, View.ld_unit_zero (S := S300x500) hz,
    View.ld_unit_zero (S := S768x500) hz, View.ld_unit_zero (S := S1x500) hz, View.ld_unit_zero (S := S500x500) hz,
    View.ld_unit_zero (S := S500x2) hz, View.ld_unit_zero (S := S1x2) hz]
  rw [blk2 V c t, blk3 V c t, blk4 V c t, blk5 V c t, blk6 V c t, blk7 V c t, blk8 V c t]
  obtain ⟨e0, e1, e2, e3, f2, f3, f4, f5, f6, f7, f8, e4, e5⟩ := idx_facts t
  funext j
  obtain ⟨r, cc, rfl⟩ : ∃ (r : Fin 1024) (cc : Fin 2), j = ix2 r cc := ⟨j 0, j 1, eq_ix2 j⟩
  refine (Pay.pay3 (iblk3 V c 0 t) (iblk3 V c 1 t) (V c main_v60) (V c main_v61) (V c main_v62) (V c main_arg9) (V c main_v63) (V c main_arg11) (V c main_v64) r cc).trans ?_
  have hcol : (((cfg3.win 9).blk t).view.emb (ix2 r cc)) 1 = cc := Fin.ext (by
    show win3_9.index t (1 : Fin 2) * 2 + 1 * cc.val = cc.val; omega)
  refine Eq.trans ?_ (head_row (V c main_v59) (V c main_arg0) (V c main_v60) (V c main_v61) (V c main_v62) (V c main_arg9) (V c main_v63)
    (V c main_arg11) (V c main_v64) (((cfg3.win 9).blk t).view.emb (ix2 r cc)) cc hcol).symm
  refine congrArg (fun a : EReal => a + V c main_v64 (ix2 (0 : Fin 1) cc)) ?_
  refine Finset.sum_congr rfl fun k' _ => congrArg (fun a : EReal => Ideal.logistic a * V c main_arg11 (ix2 k' cc)) ?_
  refine h2_eq (iblk3 V c 0 t) (iblk3 V c 1 t) (V c main_v59) (V c main_arg0) (V c main_v60) (V c main_v61) (V c main_v62) (V c main_arg9) (V c main_v63) r
    ((((cfg3.win 9).blk t).view.emb (ix2 r cc)) 0) (fun j => ?_) (fun j => ?_) k'
  · show V c main_v59 (((cfg3.win 0).blk t).view.emb (ix2 r j)) = V c main_v59 (ix2 ((((cfg3.win 9).blk t).view.emb (ix2 r cc)) 0) j)
    refine congrArg (V c main_v59) (funext fun a => Fin.ext ?_)
    match a with
    | ⟨0, _⟩ => show win3_0.index t (0 : Fin 2) * 1024 + 1 * r.val = win3_9.index t (0 : Fin 2) * 1024 + 1 * r.val; omega
    | ⟨1, _⟩ => show win3_0.index t (1 : Fin 2) * 300 + 1 * j.val = j.val; omega
  · show V c main_arg0 (((cfg3.win 1).blk t).view.emb (ix2 r j)) = V c main_arg0 (ix2 ((((cfg3.win 9).blk t).view.emb (ix2 r cc)) 0) j)
    refine congrArg (V c main_arg0) (funext fun a => Fin.ext ?_)
    match a with
    | ⟨0, _⟩ => show win3_1.index t (0 : Fin 2) * 1024 + 1 * r.val = win3_9.index t (0 : Fin 2) * 1024 + 1 * r.val; omega
    | ⟨1, _⟩ => show win3_1.index t (1 : Fin 2) * 768 + 1 * j.val = j.val; omega

/-- An index of the array is in point `t`'s block iff each coordinate is in the block's range on its axis. -/
theorem mem_blk (t : Fin cfg3.N) (i : S4096x2.Idx) :
    i ∈ ((cfg3.win 9).blk t).view.set ↔ ∀ a : Fin 2, win3_9.index t a * S1024x2.size a ≤ (i a).val ∧ (i a).val < win3_9.index t a * S1024x2.size a + S1024x2.size a := by
  show i ∈ ((View.whole main_v65).slice (win3_9.rect t)).set ↔ _
  rw [View.set_slice_whole, Rect.mem_set_unit]
  exact Iff.rfl

/-- The four blocks cover the array: row `r` is in block `r / 1024`. -/
theorem cover (i : S4096x2.Idx) :
    ∃ t : Fin cfg3.N, (cfg3.win 9).flush t = true ∧ i ∈ ((cfg3.win 9).blk t).view.set := by
  have hi0 : (i 0).val < 4096 := (i 0).isLt
  have hi1 : (i 1).val < 2 := (i 1).isLt
  obtain ⟨t, ht⟩ := idx_onto ⟨(i 0).val / 1024, by omega⟩
  have q0 : win3_9.index t (0 : Fin 2) = (i 0).val / 1024 := congrFun ht 0
  have q1 : win3_9.index t (1 : Fin 2) = 0 := congrFun ht 1
  refine ⟨t, flush3_9 t, ?_⟩
  rw [mem_blk]
  intro a
  match a with
  | ⟨0, _⟩ => show win3_9.index t (0 : Fin 2) * 1024 ≤ (i 0).val ∧ (i 0).val < win3_9.index t (0 : Fin 2) * 1024 + 1024; omega
  | ⟨1, _⟩ => show win3_9.index t (1 : Fin 2) * 2 ≤ (i 1).val ∧ (i 1).val < win3_9.index t (1 : Fin 2) * 2 + 2; omega

/-- The result array after the region. -/
theorem final (c : Dev nD) : (dat3 V c).arrAt 9 cfg3.N
    = head (V c main_v59) (V c main_arg0) (V c main_v60) (V c main_v61) (V c main_v62) (V c main_arg9) (V c main_v63) (V c main_arg11) (V c main_v64) :=
  (dat3 V c).arrAt_eq_of_cover 9 _ (fun t _ => flushed_eq V c t) (fun i => cover i)

end Cert.KernelIdeal.Reg3

end
-- ==== Proof.RefForms.lean ====
/-
  The reference program's dense stages in the specification's vocabulary.

  * The first projection is the matrix product of the node features with the first weight.
  * Each sigmoid of the reference, written as negate, exponential, add one, divide, is the logistic function.
  * The second projection is the matrix product of the logistic of the first propagation with the second weight.
  * The head reads the concatenation of a row of the gathered features with the same row of the input against the
    first layer's weight as the sum over the first 300 rows plus the sum over the last 768.
-/
import proofs.«121087_j25692494365029_1_alg».proof.Proof.RefReadP
import proofs.«121087_j25692494365029_1_alg».proof.Proof.Spec
import Idealize.ShloMosaic.Lib.IdealHost

noncomputable section

open scoped BigOperators

namespace Cert.ReferenceIdeal.RefForms

open Cert.ReferenceIdeal Cert.ReferenceIdeal.Gen Cert.ReferenceIdeal.ReadP
open Idealize.ShloMosaic Idealize.ShloMosaic.ValueIdx

/-- One over one plus the exponential of the negation, with the constant one given by its bit pattern, is the
    logistic function. -/
theorem sigmoid_form (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = Ideal.logistic x := by
  simp only [Ideal.hostDivf_def, Ideal.addf_def, Ideal.hostUnary_exp_def, Ideal.hostNegf_def, Ideal.negf_def,
    Ideal.ofBits_def, Ideal.ofBits_one_f32]
  rfl

/-- The first projection is the matrix product. -/
theorem v24_eq (x4 : (⟨S117000x300, .f32⟩ : BufTy).Contents (Elt Ideal)) (x5 : (⟨S300x300, .f32⟩ : BufTy).Contents (Elt Ideal)) :
    val_main_v24 (F := Ideal) x4 x5 = Cert.Spec.mm (M := 117000) (K := 300) (N := 300) x4 x5 := by
  funext i
  rw [val_main_v24_apply]
  refine Finset.sum_congr rfl fun k _ => ?_
  have el : lidx_main_v24 i k = ix2 (i 0) k := funext fun a => Fin.ext (by
    match a with
    | ⟨0, _⟩ => rfl
    | ⟨1, _⟩ => rfl)
  have er : ridx_main_v24 i k = ix2 k (i 1) := funext fun a => Fin.ext (by
    match a with
    | ⟨0, _⟩ => rfl
    | ⟨1, _⟩ => rfl)
  rw [el, er]
  rfl

/-- The second sigmoid is the logistic function of the second propagation, entry by entry. -/
theorem v63_eq (x2 x3 : (⟨S468000, .i32⟩ : BufTy).Contents (Elt Ideal)) (x4 : (⟨S117000x300, .f32⟩ : BufTy).Contents (Elt Ideal))
    (x5 x6 : (⟨S300x300, .f32⟩ : BufTy).Contents (Elt Ideal)) :
    val_main_v63 (F := Ideal) x2 x3 x4 x5 x6 = Cert.Spec.sig (val_main_v57 (F := Ideal) x2 x3 x4 x5 x6) := by
  funext i
  rw [val_main_v63_apply, val_main_v62_apply, val_main_cst_16_apply, val_main_v61_apply, val_main_v60_apply,
    val_main_cst_15_apply, val_main_v59_apply, val_main_v58_apply]
  exact sigmoid_form _

/-- The first sigmoid is the logistic function of the first propagation, entry by entry. -/
theorem v43_eq (x2 x3 : (⟨S468000, .i32⟩ : BufTy).Contents (Elt Ideal))
    (x4 : (⟨S117000x300, .f32⟩ : BufTy).Contents (Elt Ideal))
    (x5 : (⟨S300x300, .f32⟩ : BufTy).Contents (Elt Ideal)) :
    val_main_v43 (F := Ideal) x2 x3 x4 x5 = Cert.Spec.sig (val_main_v37 (F := Ideal) x2 x3 x4 x5) := by
  funext i
  rw [val_main_v43_apply, val_main_v42_apply, val_main_cst_11_apply, val_main_v41_apply, val_main_v40_apply,
    val_main_cst_10_apply, val_main_v39_apply, val_main_v38_apply]
  exact sigmoid_form _

/-- The second projection is the matrix product of the logistic of the first propagation with the second weight. -/
theorem v44_eq (x2 x3 : (⟨S468000, .i32⟩ : BufTy).Contents (Elt Ideal))
    (x4 : (⟨S117000x300, .f32⟩ : BufTy).Contents (Elt Ideal))
    (x5 x6 : (⟨S300x300, .f32⟩ : BufTy).Contents (Elt Ideal)) :
    val_main_v44 (F := Ideal) x2 x3 x4 x5 x6
      = Cert.Spec.mm (M := 117000) (K := 300) (N := 300) (Cert.Spec.sig (val_main_v37 (F := Ideal) x2 x3 x4 x5)) x6 := by
  funext i
  rw [val_main_v44_apply, v43_eq]
  refine Finset.sum_congr rfl fun k _ => ?_
  have el : lidx_main_v44 i k = ix2 (i 0) k := funext fun a => Fin.ext (by
    match a with
    | ⟨0, _⟩ => rfl
    | ⟨1, _⟩ => rfl)
  have er : ridx_main_v44 i k = ix2 k (i 1) := funext fun a => Fin.ext (by
    match a with
    | ⟨0, _⟩ => rfl
    | ⟨1, _⟩ => rfl)
  rw [el, er]
  rfl

/-! ## The head -/

/-- The joined array at a column among the first 300 is the gathered features at that column. -/
theorem v71_left (x0 : (⟨S4096x768, .f32⟩ : BufTy).Contents (Elt Ideal))
    (x1 : (⟨S4096, .i32⟩ : BufTy).Contents (Elt Ideal))
    (x2 x3 : (⟨S468000, .i32⟩ : BufTy).Contents (Elt Ideal))
    (x4 : (⟨S117000x300, .f32⟩ : BufTy).Contents (Elt Ideal))
    (x5 x6 : (⟨S300x300, .f32⟩ : BufTy).Contents (Elt Ideal)) (r : Fin 4096) (j : Fin 300) :
    val_main_v71 (F := Ideal) x0 x1 x2 x3 x4 x5 x6 (ix2 r (Cert.Spec.lo j)) = val_main_v70 (F := Ideal) x1 x2 x3 x4 x5 x6 (ix2 r j) := by
  unfold val_main_v71
  exact concatenate_pair_apply_left (t := S4096x1068) (s₁ := S4096x300) (s₂ := S4096x768) 1
    (val_main_v70 (F := Ideal) x1 x2 x3 x4 x5 x6) x0 _ _ rfl _ (fun b => by
    match b with
    | ⟨0, _⟩ => rfl
    | ⟨1, _⟩ => rfl)

/-- The joined array at a column among the last 768 is the input at that column, 300 less. -/
theorem v71_right (x0 : (⟨S4096x768, .f32⟩ : BufTy).Contents (Elt Ideal))
    (x1 : (⟨S4096, .i32⟩ : BufTy).Contents (Elt Ideal))
    (x2 x3 : (⟨S468000, .i32⟩ : BufTy).Contents (Elt Ideal))
    (x4 : (⟨S117000x300, .f32⟩ : BufTy).Contents (Elt Ideal))
    (x5 x6 : (⟨S300x300, .f32⟩ : BufTy).Contents (Elt Ideal)) (r : Fin 4096) (j : Fin 768) :
    val_main_v71 (F := Ideal) x0 x1 x2 x3 x4 x5 x6 (ix2 r (Cert.Spec.hi j)) = x0 (ix2 r j) := by
  unfold val_main_v71
  exact concatenate_pair_apply_right (t := S4096x1068) (s₁ := S4096x300) (s₂ := S4096x768) 1
    (val_main_v70 (F := Ideal) x1 x2 x3 x4 x5 x6) x0 _ _ rfl rfl _
    (fun b hb => by
      match b with
      | ⟨0, _⟩ => rfl
      | ⟨1, _⟩ => exact absurd rfl hb)
    (Nat.add_comm j.val 300)

/-- The first layer's product: the 1068-term sum over the joined row is the sum over the gathered features' 300
    columns plus the sum over the input's 768. -/
theorem v72_row (x0 : (⟨S4096x768, .f32⟩ : BufTy).Contents (Elt Ideal))
    (x1 : (⟨S4096, .i32⟩ : BufTy).Contents (Elt Ideal))
    (x2 x3 : (⟨S468000, .i32⟩ : BufTy).Contents (Elt Ideal))
    (x4 : (⟨S117000x300, .f32⟩ : BufTy).Contents (Elt Ideal))
    (x5 x6 : (⟨S300x300, .f32⟩ : BufTy).Contents (Elt Ideal))
    (x7 : (⟨S1068x500, .f32⟩ : BufTy).Contents (Elt Ideal)) (r : Fin 4096) (k : Fin 500) :
    val_main_v72 (F := Ideal) x0 x1 x2 x3 x4 x5 x6 x7 (ix2 r k)
      = (∑ j : Fin 300, val_main_v70 (F := Ideal) x1 x2 x3 x4 x5 x6 (ix2 r j) * x7 (ix2 (Cert.Spec.lo j) k))
        + (∑ j : Fin 768, x0 (ix2 r j) * x7 (ix2 (Cert.Spec.hi j) k)) := by
  rw [val_main_v72_apply]
  refine (Cert.Spec.sum_split _).trans ?_
  refine congrArg₂ (· + ·) (Finset.sum_congr rfl fun j _ => ?_) (Finset.sum_congr rfl fun j _ => ?_)
  ·
    have el : lidx_main_v72 (ix2 r k) (Cert.Spec.lo j) = ix2 r (Cert.Spec.lo j) := funext fun a => Fin.ext (by
      match a with
      | ⟨0, _⟩ => rfl
      | ⟨1, _⟩ => rfl)
    have er : ridx_main_v72 (ix2 r k) (Cert.Spec.lo j) = ix2 (Cert.Spec.lo j) k := funext fun a => Fin.ext (by
      match a with
      | ⟨0, _⟩ => rfl
      | ⟨1, _⟩ => rfl)
    rw [el, er, v71_left]
  ·
    have el : lidx_main_v72 (ix2 r k) (Cert.Spec.hi j) = ix2 r (Cert.Spec.hi j) := funext fun a => Fin.ext (by
      match a with
      | ⟨0, _⟩ => rfl
      | ⟨1, _⟩ => rfl)
    have er : ridx_main_v72 (ix2 r k) (Cert.Spec.hi j) = ix2 (Cert.Spec.hi j) k := funext fun a => Fin.ext (by
      match a with
      | ⟨0, _⟩ => rfl
      | ⟨1, _⟩ => rfl)
    rw [el, er, v71_right]

/-- The first layer before its activation. -/
theorem v75_row (x0 : (⟨S4096x768, .f32⟩ : BufTy).Contents (Elt Ideal))
    (x1 : (⟨S4096, .i32⟩ : BufTy).Contents (Elt Ideal))
    (x2 x3 : (⟨S468000, .i32⟩ : BufTy).Contents (Elt Ideal))
    (x4 : (⟨S117000x300, .f32⟩ : BufTy).Contents (Elt Ideal))
    (x5 x6 : (⟨S300x300, .f32⟩ : BufTy).Contents (Elt Ideal))
    (x7 : (⟨S1068x500, .f32⟩ : BufTy).Contents (Elt Ideal))
    (x8 : (⟨S500, .f32⟩ : BufTy).Contents (Elt Ideal)) (r : Fin 4096) (k : Fin 500) :
    val_main_v75 (F := Ideal) x0 x1 x2 x3 x4 x5 x6 x7 x8 (ix2 r k) = Cert.Spec.pre1 (val_main_v70 (F := Ideal) x1 x2 x3 x4 x5 x6) x0 x7 x8 r k := by
  rw [val_main_v75_apply, v72_row, val_main_v74_apply, val_main_v73_apply]
  have eb : idx_main_v73 (idx_main_v74 (ix2 r k)) = ix1 k := funext fun a => Fin.ext (by
    match a with
    | ⟨0, _⟩ => rfl)
  rw [eb]
  rfl

/-- The first layer: the logistic function of its sum. -/
theorem v81_row (x0 : (⟨S4096x768, .f32⟩ : BufTy).Contents (Elt Ideal))
    (x1 : (⟨S4096, .i32⟩ : BufTy).Contents (Elt Ideal))
    (x2 x3 : (⟨S468000, .i32⟩ : BufTy).Contents (Elt Ideal))
    (x4 : (⟨S117000x300, .f32⟩ : BufTy).Contents (Elt Ideal))
    (x5 x6 : (⟨S300x300, .f32⟩ : BufTy).Contents (Elt Ideal))
    (x7 : (⟨S1068x500, .f32⟩ : BufTy).Contents (Elt Ideal))
    (x8 : (⟨S500, .f32⟩ : BufTy).Contents (Elt Ideal)) (r : Fin 4096) (k : Fin 500) :
    val_main_v81 (F := Ideal) x0 x1 x2 x3 x4 x5 x6 x7 x8 (ix2 r k) = Ideal.logistic (Cert.Spec.pre1 (val_main_v70 (F := Ideal) x1 x2 x3 x4 x5 x6) x0 x7 x8 r k) := by
  rw [val_main_v81_apply, val_main_v80_apply, val_main_cst_20_apply, val_main_v79_apply, val_main_v78_apply,
    val_main_cst_19_apply, val_main_v77_apply, val_main_v76_apply, v75_row]
  exact sigmoid_form _

/-- The second layer before its activation. -/
theorem v85_row (x0 : (⟨S4096x768, .f32⟩ : BufTy).Contents (Elt Ideal))
    (x1 : (⟨S4096, .i32⟩ : BufTy).Contents (Elt Ideal))
    (x2 x3 : (⟨S468000, .i32⟩ : BufTy).Contents (Elt Ideal))
    (x4 : (⟨S117000x300, .f32⟩ : BufTy).Contents (Elt Ideal))
    (x5 x6 : (⟨S300x300, .f32⟩ : BufTy).Contents (Elt Ideal))
    (x7 : (⟨S1068x500, .f32⟩ : BufTy).Contents (Elt Ideal))
    (x8 : (⟨S500, .f32⟩ : BufTy).Contents (Elt Ideal))
    (x9 : (⟨S500x500, .f32⟩ : BufTy).Contents (Elt Ideal))
    (x10 : (⟨S500, .f32⟩ : BufTy).Contents (Elt Ideal)) (r : Fin 4096) (k' : Fin 500) :
    val_main_v85 (F := Ideal) x0 x1 x2 x3 x4 x5 x6 x7 x8 x9 x10 (ix2 r k') = Cert.Spec.pre2 (val_main_v70 (F := Ideal) x1 x2 x3 x4 x5 x6) x0 x7 x8 x9 x10 r k' := by
  rw [val_main_v85_apply, val_main_v82_apply, val_main_v84_apply, val_main_v83_apply]
  have eb : idx_main_v83 (idx_main_v84 (ix2 r k')) = ix1 k' := funext fun a => Fin.ext (by
    match a with
    | ⟨0, _⟩ => rfl)
  rw [eb]
  show _ + _ = (∑ k : Fin 500, Ideal.logistic (Cert.Spec.pre1 (val_main_v70 (F := Ideal) x1 x2 x3 x4 x5 x6) x0 x7 x8 r k) * x9 (ix2 k k')) + x10 (ix1 k')
  refine congrArg₂ (· + ·) (Finset.sum_congr rfl fun k _ => ?_) rfl
  have el : lidx_main_v82 (ix2 r k') k = ix2 r k := funext fun a => Fin.ext (by
    match a with
    | ⟨0, _⟩ => rfl
    | ⟨1, _⟩ => rfl)
  have er : ridx_main_v82 (ix2 r k') k = ix2 k k' := funext fun a => Fin.ext (by
    match a with
    | ⟨0, _⟩ => rfl
    | ⟨1, _⟩ => rfl)
  rw [el, er, v81_row]

/-- The second layer: the logistic function of its sum. -/
theorem v91_row (x0 : (⟨S4096x768, .f32⟩ : BufTy).Contents (Elt Ideal))
    (x1 : (⟨S4096, .i32⟩ : BufTy).Contents (Elt Ideal))
    (x2 x3 : (⟨S468000, .i32⟩ : BufTy).Contents (Elt Ideal))
    (x4 : (⟨S117000x300, .f32⟩ : BufTy).Contents (Elt Ideal))
    (x5 x6 : (⟨S300x300, .f32⟩ : BufTy).Contents (Elt Ideal))
    (x7 : (⟨S1068x500, .f32⟩ : BufTy).Contents (Elt Ideal))
    (x8 : (⟨S500, .f32⟩ : BufTy).Contents (Elt Ideal))
    (x9 : (⟨S500x500, .f32⟩ : BufTy).Contents (Elt Ideal))
    (x10 : (⟨S500, .f32⟩ : BufTy).Contents (Elt Ideal)) (r : Fin 4096) (k' : Fin 500) :
    val_main_v91 (F := Ideal) x0 x1 x2 x3 x4 x5 x6 x7 x8 x9 x10 (ix2 r k')
      = Ideal.logistic (Cert.Spec.pre2 (val_main_v70 (F := Ideal) x1 x2 x3 x4 x5 x6) x0 x7 x8 x9 x10 r k') := by
  rw [val_main_v91_apply, val_main_v90_apply, val_main_cst_22_apply, val_main_v89_apply, val_main_v88_apply,
    val_main_cst_21_apply, val_main_v87_apply, val_main_v86_apply, v85_row]
  exact sigmoid_form _

/-- The head's result is the three-layer head of the specification on the gathered features and the input. -/
theorem v95_eq (x0 : (⟨S4096x768, .f32⟩ : BufTy).Contents (Elt Ideal))
    (x1 : (⟨S4096, .i32⟩ : BufTy).Contents (Elt Ideal))
    (x2 x3 : (⟨S468000, .i32⟩ : BufTy).Contents (Elt Ideal))
    (x4 : (⟨S117000x300, .f32⟩ : BufTy).Contents (Elt Ideal))
    (x5 x6 : (⟨S300x300, .f32⟩ : BufTy).Contents (Elt Ideal))
    (x7 : (⟨S1068x500, .f32⟩ : BufTy).Contents (Elt Ideal))
    (x8 : (⟨S500, .f32⟩ : BufTy).Contents (Elt Ideal))
    (x9 : (⟨S500x500, .f32⟩ : BufTy).Contents (Elt Ideal))
    (x10 : (⟨S500, .f32⟩ : BufTy).Contents (Elt Ideal))
    (x11 : (⟨S500x2, .f32⟩ : BufTy).Contents (Elt Ideal))
    (x12 : (⟨S2, .f32⟩ : BufTy).Contents (Elt Ideal)) :
    val_main_v95 (F := Ideal) x0 x1 x2 x3 x4 x5 x6 x7 x8 x9 x10 x11 x12
      = Cert.Spec.mlp (val_main_v70 (F := Ideal) x1 x2 x3 x4 x5 x6) x0 x7 x8 x9 x10 x11 x12 := by
  funext i
  obtain ⟨r, c, rfl⟩ : ∃ (r : Fin 4096) (c : Fin 2), i = ix2 r c := ⟨i 0, i 1, eq_ix2 i⟩
  rw [val_main_v95_apply, val_main_v92_apply, val_main_v94_apply, val_main_v93_apply]
  have eb : idx_main_v93 (idx_main_v94 (ix2 r c)) = ix1 c := funext fun a => Fin.ext (by
    match a with
    | ⟨0, _⟩ => rfl)
  rw [eb]
  show _ + _ = (∑ k' : Fin 500, Ideal.logistic (Cert.Spec.pre2 (val_main_v70 (F := Ideal) x1 x2 x3 x4 x5 x6) x0 x7 x8 x9 x10 r k') * x11 (ix2 k' c)) + x12 (ix1 c)
  refine congrArg₂ (· + ·) (Finset.sum_congr rfl fun k _ => ?_) rfl
  have el : lidx_main_v92 (ix2 r c) k = ix2 r k := funext fun a => Fin.ext (by
    match a with
    | ⟨0, _⟩ => rfl
    | ⟨1, _⟩ => rfl)
  have er : ridx_main_v92 (ix2 r c) k = ix2 k c := funext fun a => Fin.ext (by
    match a with
    | ⟨0, _⟩ => rfl
    | ⟨1, _⟩ => rfl)
  rw [el, er, v91_row]

end Cert.ReferenceIdeal.RefForms

end
-- ==== Proof.FoldVal.lean ====
/-
  The kernel's result as the reference's last stage of the launch arguments.

  Walking @main's boundaries forward.  Before the first region the host operations compute the edge weights from the two
  edge-index arrays (degrees by a scatter-add of ones, their inverse square roots where positive, gathered at both ends of
  each edge and multiplied): the same operations, in the same order, as the reference's.  The first region leaves the
  product of the node features with the first weight matrix.  The host operations after it gather that product's rows at
  the edges' targets, scale them by the edge weights and scatter-add them at the edges' sources: again the reference's own
  operations.  The second region leaves the logistic of that, times the second weight matrix; the same propagation
  follows; the third region leaves its logistic.  The last host stretch gathers the batch's rows, cuts the first layer's
  weight matrix after its 300th row and writes each bias as a one-row matrix; the last region is the three-layer head.
  At each region the array left is the specification's function of the arrays found, and the specification's function
  is what the reference computes at that stage; between regions the two programs apply identical operations.
-/
import proofs.«121087_j25692494365029_1_alg».proof.Proof.FoldArgs
import proofs.«121087_j25692494365029_1_alg».proof.Proof.Reg0
import proofs.«121087_j25692494365029_1_alg».proof.Proof.Reg1
import proofs.«121087_j25692494365029_1_alg».proof.Proof.Reg2
import proofs.«121087_j25692494365029_1_alg».proof.Proof.Reg3
import proofs.«121087_j25692494365029_1_alg».proof.Proof.RefForms
import Idealize.ShloMosaic.Lib.StableHlo.Run
import Idealize.ShloMosaic.Lib.ValueLayout

set_option maxRecDepth 16384

noncomputable section

open scoped BigOperators

namespace Cert.KernelIdeal.Fold

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg) (c : Dev nD)

/-! ## Before the first region: the edge weights -/

set_option maxHeartbeats 4000000 in
/-- The comparison `degree > 0` after the first host stretch. -/
theorem v5_at1 : W1 m ρ c (Proc.devRef .tc main_v5) = Cert.ReferenceIdeal.ReadP.val_main_v5 (F := Ideal) (m ((c : Thread nD τ).loc main_arg2)) := by
  show StableHlo.after hostOps0 (W0 m ρ c) (Proc.devRef .tc main_v5) = _
  after_results_simp
  rfl

set_option maxHeartbeats 4000000 in
/-- The degrees to the power `-1/2` after the first host stretch. -/
theorem v7_at1 : W1 m ρ c (Proc.devRef .tc main_v7) = Cert.ReferenceIdeal.ReadP.val_main_v7 (F := Ideal) (m ((c : Thread nD τ).loc main_arg2)) := by
  show StableHlo.after hostOps0 (W0 m ρ c) (Proc.devRef .tc main_v7) = _
  after_results_simp
  rfl

set_option maxHeartbeats 4000000 in
/-- The zero the `where` falls back to. -/
theorem cst3_at1 : W1 m ρ c (Proc.devRef .tc main_cst_3) = Cert.ReferenceIdeal.ReadP.val_main_cst_3 (F := Ideal) := by
  show StableHlo.after hostOps0 (W0 m ρ c) (Proc.devRef .tc main_cst_3) = _
  after_results_simp
  rfl

theorem W2_a2 : W2 m ρ c (Proc.devRef .tc main_arg2) = m ((c : Thread nD τ).loc main_arg2) :=
  calc W2 m ρ c (Proc.devRef .tc main_arg2)
    _ = W1 m ρ c (Proc.devRef .tc main_arg2) := by untouched_by hostOps0_1
    _ = W0 m ρ c (Proc.devRef .tc main_arg2) := by untouched_by hostOps0
    _ = m ((c : Thread nD τ).loc main_arg2) := rfl

theorem W2_a3 : W2 m ρ c (Proc.devRef .tc main_arg3) = m ((c : Thread nD τ).loc main_arg3) :=
  calc W2 m ρ c (Proc.devRef .tc main_arg3)
    _ = W1 m ρ c (Proc.devRef .tc main_arg3) := by untouched_by hostOps0_1
    _ = W0 m ρ c (Proc.devRef .tc main_arg3) := by untouched_by hostOps0
    _ = m ((c : Thread nD τ).loc main_arg3) := rfl

set_option maxHeartbeats 4000000 in
/-- The inverse square roots of the positive degrees, zero elsewhere: the `where` over the three buffers above (its
    operations carry their buffers' types, a transport along an equation that holds by computation). -/
theorem v8_at2 : W2 m ρ c (Proc.devRef .tc main_v8) = Cert.ReferenceIdeal.ReadP.val_main_v8 (F := Ideal) (m ((c : Thread nD τ).loc main_arg2)) := by
  show StableHlo.after hostOps0_1 (W1 m ρ c) (Proc.devRef .tc main_v8) = _
  generalize hW : W1 m ρ c = W
  after_results_simp
  subst hW
  rw [v5_at1 m ρ c, v7_at1 m ρ c, cst3_at1 m ρ c]
  simp only [TRef.toBuf, TRef.ofBuf, cast_eq]
  rfl

set_option maxHeartbeats 4000000 in
/-- The edge weights: the inverse square roots gathered at both ends of each edge and multiplied. -/
theorem v23_at3 : W3 m ρ c (Proc.devRef .tc main_v23) = Cert.ReferenceIdeal.ReadP.val_main_v23 (F := Ideal) (m ((c : Thread nD τ).loc main_arg2)) (m ((c : Thread nD τ).loc main_arg3)) := by
  show StableHlo.after hostOps0_2 (W2 m ρ c) (Proc.devRef .tc main_v23) = _
  generalize hW : W2 m ρ c = W
  after_results_simp
  subst hW
  rw [v8_at2 m ρ c, W2_a2 m ρ c, W2_a3 m ρ c]
  rfl

/-! ## The first region and the first propagation -/

theorem v24_at4 : W4 m ρ c (Proc.devRef .tc main_v24) = Cert.ReferenceIdeal.ReadP.val_main_v24 (F := Ideal) (m ((c : Thread nD τ).loc main_arg4)) (m ((c : Thread nD τ).loc main_arg5)) := by
  refine (W4_arr m ρ c 2).trans ?_
  refine (Reg0.final (V3 m ρ) c).trans ?_
  show Cert.Spec.mm (M := 117000) (K := 300) (N := 300) (W3 m ρ c (Proc.devRef .tc main_arg4)) (W3 m ρ c (Proc.devRef .tc main_arg5)) = _
  rw [W3_a4 m ρ c, W3_a5 m ρ c]
  exact (Cert.ReferenceIdeal.RefForms.v24_eq _ _).symm

set_option maxHeartbeats 4000000 in
theorem v37_at5 : W5 m ρ c (Proc.devRef .tc main_v37) = Cert.ReferenceIdeal.ReadP.val_main_v37 (F := Ideal) (m ((c : Thread nD τ).loc main_arg2)) (m ((c : Thread nD τ).loc main_arg3)) (m ((c : Thread nD τ).loc main_arg4)) (m ((c : Thread nD τ).loc main_arg5)) := by
  show StableHlo.after hostOps1 (W4 m ρ c) (Proc.devRef .tc main_v37) = _
  after_results_simp
  rw [v24_at4 m ρ c, W4_v23 m ρ c, v23_at3 m ρ c, W4_a2 m ρ c, W4_a3 m ρ c]
  rfl

/-! ## The second region and the second propagation -/

theorem v38_at6 : W6 m ρ c (Proc.devRef .tc main_v38) = Cert.ReferenceIdeal.ReadP.val_main_v44 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 2).trans ?_
  refine (Reg1.final (V5 m ρ) c).trans ?_
  show Cert.Spec.mm (M := 117000) (K := 300) (N := 300) (Cert.Spec.sig (W5 m ρ c (Proc.devRef .tc main_v37))) (W5 m ρ c (Proc.devRef .tc main_arg6)) = _
  rw [v37_at5 m ρ c, W5_a6 m ρ c]
  exact (Cert.ReferenceIdeal.RefForms.v44_eq _ _ _ _ _).symm

set_option maxHeartbeats 4000000 in
theorem v51_at7 : W7 m ρ c (Proc.devRef .tc main_v51) = Cert.ReferenceIdeal.ReadP.val_main_v57 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W6 m ρ c) (Proc.devRef .tc main_v51) = _
  after_results_simp
  rw [v38_at6 m ρ c, W6_v23 m ρ c, v23_at3 m ρ c, W6_a2 m ρ c, W6_a3 m ρ c]
  rfl

/-! ## The third region and the batch's rows -/

theorem v52_at8 : W8 m ρ c (Proc.devRef .tc main_v52) = Cert.ReferenceIdeal.ReadP.val_main_v63 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 1).trans ?_
  refine (Reg2.final (V7 m ρ) c).trans ?_
  show Cert.Spec.sig (W7 m ρ c (Proc.devRef .tc main_v51)) = _
  rw [v51_at7 m ρ c]
  exact (Cert.ReferenceIdeal.RefForms.v63_eq _ _ _ _ _).symm

set_option maxHeartbeats 4000000 in
theorem v59_at9 : W9 m ρ c (Proc.devRef .tc main_v59) = Cert.ReferenceIdeal.ReadP.val_main_v70 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W8 m ρ c) (Proc.devRef .tc main_v59) = _
  after_results
  rw [v52_at8 m ρ c, W8_a1 m ρ c]
  rfl

/-! ## The head's weights and biases as the last host stretch leaves them -/

theorem v60_at9 : W9 m ρ c (Proc.devRef .tc main_v60) = extractStridedSlice S300x500 ![0, 0] (m ((c : Thread nD τ).loc main_arg7)) slices_S1068x500_S300x500_0_0 := by
  show StableHlo.after hostOps3 (W8 m ρ c) (Proc.devRef .tc main_v60) = _
  after_results
  rw [W8_a7 m ρ c]

theorem v61_at9 : W9 m ρ c (Proc.devRef .tc main_v61) = extractStridedSlice S768x500 ![300, 0] (m ((c : Thread nD τ).loc main_arg7)) slices_S1068x500_S768x500_300_0 := by
  show StableHlo.after hostOps3 (W8 m ρ c) (Proc.devRef .tc main_v61) = _
  after_results
  rw [W8_a7 m ρ c]

theorem v62_at9 : W9 m ρ c (Proc.devRef .tc main_v62) = shapeCast S1x500 (m ((c : Thread nD τ).loc main_arg8)) shapeCasts_S500_S1x500 := by
  show StableHlo.after hostOps3 (W8 m ρ c) (Proc.devRef .tc main_v62) = _
  after_results
  rw [W8_a8 m ρ c]
  rfl

theorem v63_at9 : W9 m ρ c (Proc.devRef .tc main_v63) = shapeCast S1x500 (m ((c : Thread nD τ).loc main_arg10)) shapeCasts_S500_S1x500 := by
  show StableHlo.after hostOps3 (W8 m ρ c) (Proc.devRef .tc main_v63) = _
  after_results
  rw [W8_a10 m ρ c]
  rfl

theorem v64_at9 : W9 m ρ c (Proc.devRef .tc main_v64) = shapeCast S1x2 (m ((c : Thread nD τ).loc main_arg12)) shapeCasts_S2_S1x2 := by
  show StableHlo.after hostOps3 (W8 m ρ c) (Proc.devRef .tc main_v64) = _
  after_results
  rw [W8_a12 m ρ c]
  rfl

/-! ## The result -/

/-- The result buffer at the last boundary is the reference's last stage of the launch arguments. -/
theorem result : W10 m ρ c (Proc.devRef .tc main_v65)
    = Cert.ReferenceIdeal.ReadP.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W10_arr m ρ c 9).trans ?_
  refine (Reg3.final (V9 m ρ) c).trans ?_
  show Reg3.head (W9 m ρ c (Proc.devRef .tc main_v59)) (W9 m ρ c (Proc.devRef .tc main_arg0)) (W9 m ρ c (Proc.devRef .tc main_v60))
      (W9 m ρ c (Proc.devRef .tc main_v61)) (W9 m ρ c (Proc.devRef .tc main_v62)) (W9 m ρ c (Proc.devRef .tc main_arg9))
      (W9 m ρ c (Proc.devRef .tc main_v63)) (W9 m ρ c (Proc.devRef .tc main_arg11)) (W9 m ρ c (Proc.devRef .tc main_v64)) = _
  rw [v59_at9 m ρ c, W9_a0 m ρ c, v60_at9 m ρ c, v61_at9 m ρ c, v62_at9 m ρ c, W9_a9 m ρ c, v63_at9 m ρ c, W9_a11 m ρ c, v64_at9 m ρ c]
  refine (Reg3.head_eq_mlp _ _ _ _ _ _ _ _).trans ?_
  exact (Cert.ReferenceIdeal.RefForms.v95_eq _ _ _ _ _ _ _ _ _ _ _ _ _).symm

end Cert.KernelIdeal.Fold

end
-- ==== Proof.lean ====
/-
  The certificate: a four-region Pallas program (a dense product, a logistic-then-product, a logistic, and a three-layer
  head, with the sparse normalized-adjacency propagation done by host gathers and scatter-adds between them) computes,
  on the extended reals, what the plain reference computes.

  The two programs differ in three ways, none of which changes a value there.  Each region tiles its rows over a grid;
  a row of a product, of a logistic, or of the head depends only on that row of the operand, so the blocks written are
  blocks of one whole-array function and they tile the result.  The kernels use the logistic operation where the
  reference spells `1 / (1 + e^(-x))` with negate, exponential, add and divide: the same function on every extended real,
  by definition.  And the head's first layer multiplies the gathered node rows and the input rows by the first 300 and the
  last 768 rows of its weight matrix and adds the two products, where the reference concatenates the rows and multiplies
  once: a sum of 1068 terms split after its 300th, which needs only that addition is commutative and associative.  So no
  finiteness of the inputs is used.  Everything else — the degrees, the edge weights, the gathers and scatter-adds, the row
  gather of the batch — is the same list of host operations in both programs.

  The frames of the two kernel programs are the generated ones; the reference's frame is its run with the result dropped.
  The idealization rewrote no operation, so there is nothing to preserve.
-/
import proofs.«121087_j25692494365029_1_alg».proof.Defs
import proofs.«121087_j25692494365029_1_alg».proof.Proof.Gen.Kernel
import proofs.«121087_j25692494365029_1_alg».proof.Proof.Gen.Kernel.Skeleton
import proofs.«121087_j25692494365029_1_alg».proof.Proof.Gen.Kernel.Launch
import proofs.«121087_j25692494365029_1_alg».proof.Proof.Gen.Kernel.Points
import proofs.«121087_j25692494365029_1_alg».proof.Proof.Gen.Kernel.Frame
import proofs.«121087_j25692494365029_1_alg».proof.Proof.Gen.KernelIdeal
import proofs.«121087_j25692494365029_1_alg».proof.Proof.Gen.KernelIdeal.Skeleton
import proofs.«121087_j25692494365029_1_alg».proof.Proof.Gen.KernelIdeal.Launch
import proofs.«121087_j25692494365029_1_alg».proof.Proof.Gen.KernelIdeal.Points
import proofs.«121087_j25692494365029_1_alg».proof.Proof.Gen.KernelIdeal.Frame
import proofs.«121087_j25692494365029_1_alg».proof.Proof.Gen.ReferenceIdeal
import proofs.«121087_j25692494365029_1_alg».proof.Proof.RefRunP
import proofs.«121087_j25692494365029_1_alg».proof.Proof.RefReadP
import proofs.«121087_j25692494365029_1_alg».proof.Proof.Gen.Pre_finite_inputs
import proofs.«121087_j25692494365029_1_alg».proof.Proof.KRun
import proofs.«121087_j25692494365029_1_alg».proof.Proof.FoldVal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs, run from memories that agree on the arguments, end with the reference's last stage of those
    arguments in their result buffers. -/
theorem algebraic : Cert.algebraic_KernelIdeal_ReferenceIdeal := by
  intro m ρ m' ρ' _ hagree
  refine ⟨fun c => Cert.ReferenceIdeal.ReadP.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12⟩ := hagree c
    rw [Cert.ReferenceIdeal.ReadP.val_main_v95_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
